-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x64 : Shape := ⟨3, ![4096, 200, 64]⟩
abbrev S4096x64 : Shape := ⟨2, ![4096, 64]⟩
abbrev S4096x200 : Shape := ⟨2, ![4096, 200]⟩
abbrev S256x80 : Shape := ⟨2, ![256, 80]⟩
abbrev S80 : Shape := ⟨1, ![80]⟩
abbrev S80x40 : Shape := ⟨2, ![80, 40]⟩
abbrev S40 : Shape := ⟨1, ![40]⟩
abbrev S40x1 : Shape := ⟨2, ![40, 1]⟩
abbrev S1 : Shape := ⟨1, ![1]⟩
abbrev S_ : Shape := ⟨0, ![]⟩

class Facts : Prop where
  bcast_S_S4096x200x64 : S_.BroadcastsInDim S4096x200x64 (![] : Fin 0 → Fin S4096x200x64.rank)
  reducesTo_S4096x200x64_S_d0_1_2 : S4096x200x64.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S256x80 : S_.BroadcastsInDim S256x80 (![] : Fin 0 → Fin S256x80.rank)
  reducesTo_S256x80_S_d0_1 : S256x80.ReducesTo [0, 1] S_
  bcast_S_S80 : S_.BroadcastsInDim S80 (![] : Fin 0 → Fin S80.rank)
  reducesTo_S80_S_d0 : S80.ReducesTo [0] S_
  bcast_S_S80x40 : S_.BroadcastsInDim S80x40 (![] : Fin 0 → Fin S80x40.rank)
  reducesTo_S80x40_S_d0_1 : S80x40.ReducesTo [0, 1] S_
  bcast_S_S40 : S_.BroadcastsInDim S40 (![] : Fin 0 → Fin S40.rank)
  reducesTo_S40_S_d0 : S40.ReducesTo [0] S_
  bcast_S_S40x1 : S_.BroadcastsInDim S40x1 (![] : Fin 0 → Fin S40x1.rank)
  reducesTo_S40x1_S_d0_1 : S40x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S80x40 .f32) (main_arg6 : FVec F S40 .f32) (main_arg7 : FVec F S40x1 .f32) (main_arg8 : FVec F S1 .f32) (main_v13 : IVec S_ 1) (main_v16 : IVec S80 1) : IVec S_ 1 :=
  let main_c_5 : IVec S_ 1 := constantI S_ 1 1#1
  let main_v17 : IVec S_ 1 := (fun x v => Host.reduce IntOp.andi x v reducesTo_S80_S_d0 h_S_) main_v16 main_c_5
  let main_v18 : IVec S_ 1 := andi main_v13 main_v17
  let main_v19 : FVec F S80x40 .f32 := Host.absf main_arg5
  let main_cst_6 : FVec F S_ .f32 := constant S_ .f32 0x7F800000#32
  let main_v20 : FVec F S80x40 .f32 := broadcastInDim S80x40 ![] bcast_S_S80x40 main_cst_6
  let main_v21 : IVec S80x40 1 := cmpf .olt main_v19 main_v20
  let main_c_7 : IVec S_ 1 := constantI S_ 1 1#1
  let main_v22 : IVec S_ 1 := (fun x v => Host.reduce IntOp.andi x v reducesTo_S80x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x1 .f32 := Host.absf main_arg7
  let main_cst_10 : FVec F S_ .f32 := constant S_ .f32 0x7F800000#32
  let main_v30 : FVec F S40x1 .f32 := broadcastInDim S40x1 ![] bcast_S_S40x1 main_cst_10
  let main_v31 : IVec S40x1 1 := cmpf .olt main_v29 main_v30
  let main_c_11 : IVec S_ 1 := constantI S_ 1 1#1
  let main_v32 : IVec S_ 1 := (fun x v => Host.reduce IntOp.andi x v reducesTo_S40x1_S_d0_1 h_S_) main_v31 main_c_11
  let main_v33 : IVec S_ 1 := andi main_v28 main_v32
  fn_part2 (F := F) main_arg8 main_v33

def fn {F : FTy → Type} [FloatOps F] (main_arg0 : FVec F S4096x200x64 .f32) (main_arg1 : FVec F S4096x64 .f32) (main_arg2 : IVec S4096x200 32) (main_arg3 : FVec F S256x80 .f32) (main_arg4 : FVec F S80 .f32) (main_arg5 : FVec F S80x40 .f32) (main_arg6 : FVec F S40 .f32) (main_arg7 : FVec F S40x1 .f32) (main_arg8 : FVec F S1 .f32) : IVec S_ 1 :=
  let main_v0 : FVec F S4096x200x64 .f32 := Host.absf main_arg0
  let main_cst : FVec F S_ .f32 := constant S_ .f32 0x7F800000#32
  let main_v1 : FVec F S4096x200x64 .f32 := broadcastInDim S4096x200x64 ![] bcast_S_S4096x200x64 main_cst
  let main_v2 : IVec S4096x200x64 1 := cmpf .olt main_v0 main_v1
  let main_c : IVec S_ 1 := constantI S_ 1 1#1
  let main_v3 : IVec S_ 1 := (fun x v => Host.reduce IntOp.andi x v reducesTo_S4096x200x64_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S256x80 .f32 := Host.absf main_arg3
  let main_cst_2 : FVec F S_ .f32 := constant S_ .f32 0x7F800000#32
  let main_v10 : FVec F S256x80 .f32 := broadcastInDim S256x80 ![] bcast_S_S256x80 main_cst_2
  let main_v11 : IVec S256x80 1 := cmpf .olt main_v9 main_v10
  let main_c_3 : IVec S_ 1 := constantI S_ 1 1#1
  let main_v12 : IVec S_ 1 := (fun x v => Host.reduce IntOp.andi x v reducesTo_S256x80_S_d0_1 h_S_) main_v11 main_c_3
  let main_v13 : IVec S_ 1 := andi main_v8 main_v12
  let main_v14 : FVec F S80 .f32 := Host.absf main_arg4
  let main_cst_4 : FVec F S_ .f32 := constant S_ .f32 0x7F800000#32
  let main_v15 : FVec F S80 .f32 := broadcastInDim S80 ![] bcast_S_S80 main_cst_4
  let main_v16 : IVec S80 1 := cmpf .olt main_v14 main_v15
  fn_part1 (F := F) main_arg5 main_arg6 main_arg7 main_arg8 main_v13 main_v16
-- ==== Kernel.lean ====
abbrev S4096x200x64 : Shape := ⟨3, ![4096, 200, 64]⟩
abbrev S4096x64 : Shape := ⟨2, ![4096, 64]⟩
abbrev S4096x200 : Shape := ⟨2, ![4096, 200]⟩
abbrev S256x80 : Shape := ⟨2, ![256, 80]⟩
abbrev S80 : Shape := ⟨1, ![80]⟩
abbrev S80x40 : Shape := ⟨2, ![80, 40]⟩
abbrev S40 : Shape := ⟨1, ![40]⟩
abbrev S40x1 : Shape := ⟨2, ![40, 1]⟩
abbrev S1 : Shape := ⟨1, ![1]⟩
abbrev S64x80 : Shape := ⟨2, ![64, 80]⟩
abbrev S128x80 : Shape := ⟨2, ![128, 80]⟩
abbrev S1x40 : Shape := ⟨2, ![1, 40]⟩
abbrev S64x200x64 : Shape := ⟨3, ![64, 200, 64]⟩
abbrev S64x64 : Shape := ⟨2, ![64, 64]⟩
abbrev S64x200 : Shape := ⟨2, ![64, 200]⟩
abbrev S64x1x64 : Shape := ⟨3, ![64, 1, 64]⟩
abbrev S64x200x128 : Shape := ⟨3, ![64, 200, 128]⟩
abbrev S12800x128 : Shape := ⟨2, ![12800, 128]⟩
abbrev S12800x80 : Shape := ⟨2, ![12800, 80]⟩
abbrev S64x200x80 : Shape := ⟨3, ![64, 200, 80]⟩
abbrev S64x1x80 : Shape := ⟨3, ![64, 1, 80]⟩
abbrev S1x1x80 : Shape := ⟨3, ![1, 1, 80]⟩
abbrev S12800x40 : Shape := ⟨2, ![12800, 40]⟩
abbrev S64x200x40 : Shape := ⟨3, ![64, 200, 40]⟩
abbrev S1x1x40 : Shape := ⟨3, ![1, 1, 40]⟩
abbrev S1x1 : Shape := ⟨2, ![1, 1]⟩
abbrev S64 : Shape := ⟨1, ![64]⟩
abbrev S64x1 : Shape := ⟨2, ![64, 1]⟩

abbrev nBuf : Space → Nat
  | .hbm => 21
  | .vmem => 15
  | .smem => 0
  | _ => 0

abbrev bufTy : (tb : Table) → Fin (tcTables nBuf tb) → BufTy
  | .hbm, ⟨0, _⟩ => ⟨S4096x200x64, .f32⟩
  | .hbm, ⟨1, _⟩ => ⟨S4096x64, .f32⟩
  | .hbm, ⟨2, _⟩ => ⟨S4096x200, .i32⟩
  | .hbm, ⟨3, _⟩ => ⟨S256x80, .f32⟩
  | .hbm, ⟨4, _⟩ => ⟨S80, .f32⟩
  | .hbm, ⟨5, _⟩ => ⟨S80x40, .f32⟩
  | .hbm, ⟨6, _⟩ => ⟨S40, .f32⟩
  | .hbm, ⟨7, _⟩ => ⟨S40x1, .f32⟩
  | .hbm, ⟨8, _⟩ => ⟨S1, .f32⟩
  | .hbm, ⟨9, _⟩ => ⟨S64x80, .f32⟩
  | .hbm, ⟨10, _⟩ => ⟨S64x80, .f32⟩
  | .hbm, ⟨11, _⟩ => ⟨S64x80, .f32⟩
  | .hbm, ⟨12, _⟩ => ⟨S64x80, .f32⟩
  | .hbm, ⟨13, _⟩ => ⟨S64x80, .f32⟩
  | .hbm, ⟨14, _⟩ => ⟨S64x80, .bf16⟩
  | .hbm, ⟨15, _⟩ => ⟨S64x80, .f32⟩
  | .hbm, ⟨16, _⟩ => ⟨S128x80, .f32⟩
  | .hbm, ⟨17, _⟩ => ⟨S128x80, .bf16⟩
  | .hbm, ⟨18, _⟩ => ⟨S80x40, .bf16⟩
  | .hbm, ⟨19, _⟩ => ⟨S1x40, .f32⟩
  | .hbm, ⟨20, _⟩ => ⟨S4096x200, .f32⟩
  | .local _ .vmem, ⟨0, _⟩ => ⟨S64x200x64, .f32⟩
  | .local _ .vmem, ⟨1, _⟩ => ⟨S64x200x64, .f32⟩
  | .local _ .vmem, ⟨2, _⟩ => ⟨S64x64, .f32⟩
  | .local _ .vmem, ⟨3, _⟩ => ⟨S64x64, .f32⟩
  | .local _ .vmem, ⟨4, _⟩ => ⟨S64x200, .i32⟩
  | .local _ .vmem, ⟨5, _⟩ => ⟨S64x200, .i32⟩
  | .local _ .vmem, ⟨6, _⟩ => ⟨S64x80, .bf16⟩
  | .local _ .vmem, ⟨7, _⟩ => ⟨S128x80, .bf16⟩
  | .local _ .vmem, ⟨8, _⟩ => ⟨S80, .f32⟩
  | .local _ .vmem, ⟨9, _⟩ => ⟨S80x40, .bf16⟩
  | .local _ .vmem, ⟨10, _⟩ => ⟨S40, .f32⟩
  | .local _ .vmem, ⟨11, _⟩ => ⟨S1x40, .f32⟩
  | .local _ .vmem, ⟨12, _⟩ => ⟨S1, .f32⟩
  | .local _ .vmem, ⟨13, _⟩ => ⟨S64x200, .f32⟩
  | .local _ .vmem, ⟨14, _⟩ => ⟨S64x200, .f32⟩
  | _, _ => ⟨S4096x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x80 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x80 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S80x40 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x200 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S256x80_S64x80_0_0 : S256x80.Slices ![0, 0] S64x80
  slices_S256x80_S64x80_64_0 : S256x80.Slices ![64, 0] S64x80
  slices_S256x80_S64x80_128_0 : S256x80.Slices ![128, 0] S64x80
  slices_S256x80_S64x80_192_0 : S256x80.Slices ![192, 0] S64x80
  bitsLt_bf16_f32 : FTy.bits .bf16 < FTy.bits .f32
  concatenates_S64x80_S64x80_S128x80_d0 : Shape.Concatenates [S64x80, S64x80] S128x80 0
  shapeCasts_S40x1_S1x40 : S40x1.ShapeCasts S1x40
  inb_S64x200x64_S64x200x64_0_0_0 : ∀ a, (![0, 0, 0] : Fin 3 → Nat) a + S64x200x64.size a ≤ S64x200x64.size a
  h_S64x200x64 : 0 < S64x200x64.numel
  inb_S64x64_S64x64_0_0 : ∀ a, (![0, 0] : Fin 2 → Nat) a + S64x64.size a ≤ S64x64.size a
  h_S64x64 : 0 < S64x64.numel
  shapeCasts_S64x64_S64x1x64 : S64x64.ShapeCasts S64x1x64
  broadcasts_S64x1x64_S64x200x64 : S64x1x64.Broadcasts S64x200x64
  concatenates_S64x200x64_S64x200x64_S64x200x128_d2 : Shape.Concatenates [S64x200x64, S64x200x64] S64x200x128 2
  shapeCasts_S64x200x128_S12800x128 : S64x200x128.ShapeCasts S12800x128
  inb_S64x80_S64x80_0_0 : ∀ a, (![0, 0] : Fin 2 → Nat) a + S64x80.size a ≤ S64x80.size a
  h_S64x80 : 0 < S64x80.numel
  shapeCasts_S64x80_S64x80 : S64x80.ShapeCasts S64x80
  inb_S128x80_S128x80_0_0 : ∀ a, (![0, 0] : Fin 2 → Nat) a + S128x80.size a ≤ S128x80.size a
  h_S128x80 : 0 < S128x80.numel
  shapeCasts_S128x80_S128x80 : S128x80.ShapeCasts S128x80
  shapeCasts_S12800x80_S64x200x80 : S12800x80.ShapeCasts S64x200x80
  inb_S80_S80_0 : ∀ a, (![0] : Fin 1 → Nat) a + S80.size a ≤ S80.size a
  h_S80 : 0 < S80.numel
  shapeCasts_S64x80_S64x1x80 : S64x80.ShapeCasts S64x1x80
  broadcasts_S64x1x80_S64x200x80 : S64x1x80.Broadcasts S64x200x80
  shapeCasts_S80_S1x1x80 : S80.ShapeCasts S1x1x80
  broadcasts_S1x1x80_S64x200x80 : S1x1x80.Broadcasts S64x200x80
  shapeCasts_S64x200x80_S12800x80 : S64x200x80.ShapeCasts S12800x80
  inb_S80x40_S80x40_0_0 : ∀ a, (![0, 0] : Fin 2 → Nat) a + S80x40.size a ≤ S80x40.size a
  h_S80x40 : 0 < S80x40.numel
  shapeCasts_S80x40_S80x40 : S80x40.ShapeCasts S80x40
  shapeCasts_S12800x40_S64x200x40 : S12800x40.ShapeCasts S64x200x40
  inb_S40_S40_0 : ∀ a, (![0] : Fin 1 → Nat) a + S40.size a ≤ S40.size a
  h_S40 : 0 < S40.numel
  shapeCasts_S40_S1x1x40 : S40.ShapeCasts S1x1x40
  broadcasts_S1x1x40_S64x200x40 : S1x1x40.Broadcasts S64x200x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  shapeCasts_S1x40_S1x1x40 : S1x40.ShapeCasts S1x1x40
  reduces_S64x200x40_S64x200 : S64x200x40.Reduces [2] S64x200
  inb_S1_S1_0 : ∀ a, (![0] : Fin 1 → Nat) a + S1.size a ≤ S1.size a
  h_S1 : 0 < S1.numel
  shapeCasts_S1_S1x1 : S1.ShapeCasts S1x1
  broadcasts_S1x1_S64x200 : S1x1.Broadcasts S64x200
  inb_S64x200_S64x200_0_0 : ∀ a, (![0, 0] : Fin 2 → Nat) a + S64x200.size a ≤ S64x200.size a
  h_S64x200 : 0 < S64x200.numel
  reduces_S64x200_S64 : S64x200.Reduces [1] S64
  shapeCasts_S64_S64x1 : S64.ShapeCasts S64x1
  broadcasts_S64x1_S64x200 : S64x1.Broadcasts S64x200
  dot_S64x64_S64x80_S64x80_1_0_0_1_n_n_wf : DotDims.WF S64x64 S64x80 S64x80 [1] [0] [0] [1] [] []
  dot_S12800x128_S128x80_S12800x80_1_0_0_1_n_n_wf : DotDims.WF S12800x128 S128x80 S12800x80 [1] [0] [0] [1] [] []
  dot_S12800x80_S80x40_S12800x40_1_0_0_1_n_n_wf : DotDims.WF S12800x80 S80x40 S12800x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x200x64.size a ≤ S4096x200x64.size a
  hwx0_0 : ∀ i : grid0.Coords, EltTy.bits .f32 = 32 ∨ (Rect.block (s := S4096x200x64) S64x200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S4096x64.size a
  hwx0_1 : ∀ i : grid0.Coords, EltTy.bits .f32 = 32 ∨ (Rect.block (s := S4096x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x200.size a ≤ S4096x200.size a
  hwx0_2 : ∀ i : grid0.Coords, EltTy.bits .i32 = 32 ∨ (Rect.block (s := S4096x200) S64x200.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x80.size a ≤ S64x80.size a
  hwx0_3 : ∀ i : grid0.Coords, EltTy.bits .bf16 = 32 ∨ (Rect.block (s := S64x80) S64x80.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x80.size a ≤ S128x80.size a
  hwx0_4 : ∀ i : grid0.Coords, EltTy.bits .bf16 = 32 ∨ (Rect.block (s := S128x80) S128x80.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S80.size a ≤ S80.size a
  hwx0_5 : ∀ i : grid0.Coords, EltTy.bits .f32 = 32 ∨ (Rect.block (s := S80) S80.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S80x40.size a ≤ S80x40.size a
  hwx0_6 : ∀ i : grid0.Coords, EltTy.bits .bf16 = 32 ∨ (Rect.block (s := S80x40) S80x40.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S40.size a ≤ S40.size a
  hwx0_7 : ∀ i : grid0.Coords, EltTy.bits .f32 = 32 ∨ (Rect.block (s := S40) S40.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x40.size a ≤ S1x40.size a
  hwx0_8 : ∀ i : grid0.Coords, EltTy.bits .f32 = 32 ∨ (Rect.block (s := S1x40) S1x40.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x200.size a ≤ S4096x200.size a
  hwx0_10 : ∀ i : grid0.Coords, EltTy.bits .f32 = 32 ∨ (Rect.block (s := S4096x200) S64x200.size (cc0_transform_10 i) (hinb0_10 i)).WholeWords (EltTy.packing .f32)

variable [Facts₀]

def dot_S64x64_S64x80_S64x80_1_0_0_1_n_n : DotDims S64x64 S64x80 S64x80 where
  lhsContracting := [1]
  rhsContracting := [0]
  lhsNonContracting := [0]
  rhsNonContracting := [1]
  lhsBatch := []
  rhsBatch := []
  wf := dot_S64x64_S64x80_S64x80_1_0_0_1_n_n_wf
def dot_S12800x128_S128x80_S12800x80_1_0_0_1_n_n : DotDims S12800x128 S128x80 S12800x80 where
  lhsContracting := [1]
  rhsContracting := [0]
  lhsNonContracting := [0]
  rhsNonContracting := [1]
  lhsBatch := []
  rhsBatch := []
  wf := dot_S12800x128_S128x80_S12800x80_1_0_0_1_n_n_wf
def dot_S12800x80_S80x40_S12800x40_1_0_0_1_n_n : DotDims S12800x80 S80x40 S12800x40 where
  lhsContracting := [1]
  rhsContracting := [0]
  lhsNonContracting := [0]
  rhsNonContracting := [1]
  lhsBatch := []
  rhsBatch := []
  wf := dot_S12800x80_S80x40_S12800x40_1_0_0_1_n_n_wf

abbrev win0_0 : Pipeline.Window sig grid0 :=
  Pipeline.Window.ofSpec (Memref.whole main_arg0) S64x200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S80x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S64x200.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x200x64 : Shape := ⟨3, ![4096, 200, 64]⟩
abbrev S4096x64 : Shape := ⟨2, ![4096, 64]⟩
abbrev S4096x200 : Shape := ⟨2, ![4096, 200]⟩
abbrev S256x80 : Shape := ⟨2, ![256, 80]⟩
abbrev S80 : Shape := ⟨1, ![80]⟩
abbrev S80x40 : Shape := ⟨2, ![80, 40]⟩
abbrev S40 : Shape := ⟨1, ![40]⟩
abbrev S40x1 : Shape := ⟨2, ![40, 1]⟩
abbrev S1 : Shape := ⟨1, ![1]⟩
abbrev S4096x1x64 : Shape := ⟨3, ![4096, 1, 64]⟩
abbrev S4096x200x256 : Shape := ⟨3, ![4096, 200, 256]⟩
abbrev S4096x200x80 : Shape := ⟨3, ![4096, 200, 80]⟩
abbrev S1x1x80 : Shape := ⟨3, ![1, 1, 80]⟩
abbrev S_ : Shape := ⟨0, ![]⟩
abbrev S4096x200x40 : Shape := ⟨3, ![4096, 200, 40]⟩
abbrev S1x1x40 : Shape := ⟨3, ![1, 1, 40]⟩
abbrev S4096x200x1 : Shape := ⟨3, ![4096, 200, 1]⟩
abbrev S1x1x1 : Shape := ⟨3, ![1, 1, 1]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x200x64, .f32⟩
  | .hbm, ⟨1, _⟩ => ⟨S4096x64, .f32⟩
  | .hbm, ⟨2, _⟩ => ⟨S4096x200, .i32⟩
  | .hbm, ⟨3, _⟩ => ⟨S256x80, .f32⟩
  | .hbm, ⟨4, _⟩ => ⟨S80, .f32⟩
  | .hbm, ⟨5, _⟩ => ⟨S80x40, .f32⟩
  | .hbm, ⟨6, _⟩ => ⟨S40, .f32⟩
  | .hbm, ⟨7, _⟩ => ⟨S40x1, .f32⟩
  | .hbm, ⟨8, _⟩ => ⟨S1, .f32⟩
  | .hbm, ⟨9, _⟩ => ⟨S4096x1x64, .f32⟩
  | .hbm, ⟨10, _⟩ => ⟨S4096x200x64, .f32⟩
  | .hbm, ⟨11, _⟩ => ⟨S4096x200x64, .f32⟩
  | .hbm, ⟨12, _⟩ => ⟨S4096x200x64, .f32⟩
  | .hbm, ⟨13, _⟩ => ⟨S4096x200x256, .f32⟩
  | .hbm, ⟨14, _⟩ => ⟨S4096x200x80, .f32⟩
  | .hbm, ⟨15, _⟩ => ⟨S1x1x80, .f32⟩
  | .hbm, ⟨16, _⟩ => ⟨S4096x200x80, .f32⟩
  | .hbm, ⟨17, _⟩ => ⟨S4096x200x80, .f32⟩
  | .hbm, ⟨18, _⟩ => ⟨S_, .f32⟩
  | .hbm, ⟨19, _⟩ => ⟨S4096x200x80, .f32⟩
  | .hbm, ⟨20, _⟩ => ⟨S4096x200x80, .f32⟩
  | .hbm, ⟨21, _⟩ => ⟨S4096x200x40, .f32⟩
  | .hbm, ⟨22, _⟩ => ⟨S1x1x40, .f32⟩
  | .hbm, ⟨23, _⟩ => ⟨S4096x200x40, .f32⟩
  | .hbm, ⟨24, _⟩ => ⟨S4096x200x40, .f32⟩
  | .hbm, ⟨25, _⟩ => ⟨S_, .f32⟩
  | .hbm, ⟨26, _⟩ => ⟨S4096x200x40, .f32⟩
  | .hbm, ⟨27, _⟩ => ⟨S4096x200x40, .f32⟩
  | .hbm, ⟨28, _⟩ => ⟨S4096x200x1, .f32⟩
  | .hbm, ⟨29, _⟩ => ⟨S1x1x1, .f32⟩
  | .hbm, ⟨30, _⟩ => ⟨S4096x200x1, .f32⟩
  | .hbm, ⟨31, _⟩ => ⟨S4096x200x1, .f32⟩
  | .hbm, ⟨32, _⟩ => ⟨S4096x200, .f32⟩
  | .hbm, ⟨33, _⟩ => ⟨S4096x200, .f32⟩
  | .hbm, ⟨34, _⟩ => ⟨S4096x200, .f32⟩
  | .hbm, ⟨35, _⟩ => ⟨S_, .f32⟩
  | .hbm, ⟨36, _⟩ => ⟨S4096x200, .f32⟩
  | .hbm, ⟨37, _⟩ => ⟨S4096x200, .f32⟩
  | .hbm, ⟨38, _⟩ => ⟨S_, .f32⟩
  | .hbm, ⟨39, _⟩ => ⟨S4096x200, .f32⟩
  | .hbm, ⟨40, _⟩ => ⟨S4096x200, .f32⟩
  | .hbm, ⟨41, _⟩ => ⟨S4096x200, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1, .f32⟩
  | .hbm, ⟨48, _⟩ => ⟨S4096x200, .f32⟩
  | .hbm, ⟨49, _⟩ => ⟨S4096x200, .f32⟩
  | .hbm, ⟨50, _⟩ => ⟨S4096x200, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x200, .f32⟩
  | .hbm, ⟨55, _⟩ => ⟨S4096x200, .f32⟩
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_cst : Ref sig .tc := ⟨.hbm, 25, rfl⟩
abbrev main_call1_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S4096x64_S4096x1x64_0_2 : S4096x64.BroadcastsInDim S4096x1x64 (![0, 2] : Fin 2 → Fin S4096x1x64.rank)
  bcast_S4096x1x64_S4096x200x64_0_1_2 : S4096x1x64.BroadcastsInDim S4096x200x64 (![0, 1, 2] : Fin 3 → Fin S4096x200x64.rank)
  concatenates_S4096x200x64_S4096x200x64_S4096x200x64_S4096x200x64_S4096x200x256_d2 : Shape.Concatenates [S4096x200x64, S4096x200x64, S4096x200x64, S4096x200x64] S4096x200x256 2
  bcast_S80_S1x1x80_2 : S80.BroadcastsInDim S1x1x80 (![2] : Fin 1 → Fin S1x1x80.rank)
  bcast_S1x1x80_S4096x200x80_0_1_2 : S1x1x80.BroadcastsInDim S4096x200x80 (![0, 1, 2] : Fin 3 → Fin S4096x200x80.rank)
  bcast_S_S4096x200x80 : S_.BroadcastsInDim S4096x200x80 (![] : Fin 0 → Fin S4096x200x80.rank)
  bcast_S40_S1x1x40_2 : S40.BroadcastsInDim S1x1x40 (![2] : Fin 1 → Fin S1x1x40.rank)
  bcast_S1x1x40_S4096x200x40_0_1_2 : S1x1x40.BroadcastsInDim S4096x200x40 (![0, 1, 2] : Fin 3 → Fin S4096x200x40.rank)
  bcast_S_S4096x200x40 : S_.BroadcastsInDim S4096x200x40 (![] : Fin 0 → Fin S4096x200x40.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  shapeCasts_S4096x200x1_S4096x200 : S4096x200x1.ShapeCasts S4096x200
  bcast_S_S4096x200 : S_.BroadcastsInDim S4096x200 (![] : Fin 0 → Fin S4096x200.rank)
  reducesTo_S4096x200_S4096_d1 : S4096x200.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x200_0_1 : S4096x1.BroadcastsInDim S4096x200 (![0, 1] : Fin 2 → Fin S4096x200.rank)
  dot_S4096x200x256_S256x80_S4096x200x80_2_0_01_1_n_n_wf : DotDims.WF S4096x200x256 S256x80 S4096x200x80 [2] [0] [0, 1] [1] [] []
  dot_S4096x200x80_S80x40_S4096x200x40_2_0_01_1_n_n_wf : DotDims.WF S4096x200x80 S80x40 S4096x200x40 [2] [0] [0, 1] [1] [] []
  dot_S4096x200x40_S40x1_S4096x200x1_2_0_01_1_n_n_wf : DotDims.WF S4096x200x40 S40x1 S4096x200x1 [2] [0] [0, 1] [1] [] []

variable [Facts₀]

def dot_S4096x200x256_S256x80_S4096x200x80_2_0_01_1_n_n : DotDims S4096x200x256 S256x80 S4096x200x80 where
  lhsContracting := [2]
  rhsContracting := [0]
  lhsNonContracting := [0, 1]
  rhsNonContracting := [1]
  lhsBatch := []
  rhsBatch := []
  wf := dot_S4096x200x256_S256x80_S4096x200x80_2_0_01_1_n_n_wf
def dot_S4096x200x80_S80x40_S4096x200x40_2_0_01_1_n_n : DotDims S4096x200x80 S80x40 S4096x200x40 where
  lhsContracting := [2]
  rhsContracting := [0]
  lhsNonContracting := [0, 1]
  rhsNonContracting := [1]
  lhsBatch := []
  rhsBatch := []
  wf := dot_S4096x200x80_S80x40_S4096x200x40_2_0_01_1_n_n_wf
def dot_S4096x200x40_S40x1_S4096x200x1_2_0_01_1_n_n : DotDims S4096x200x40 S40x1 S4096x200x1 where
  lhsContracting := [2]
  rhsContracting := [0]
  lhsNonContracting := [0, 1]
  rhsNonContracting := [1]
  lhsBatch := []
  rhsBatch := []
  wf := dot_S4096x200x40_S40x1_S4096x200x1_2_0_01_1_n_n_wf

class Facts : Prop extends Facts₀ where

variable [Facts]
-- ==== Proof.LibBlockSum.lean ====
/-
  Regrouping a finite sum into consecutive blocks, and a running total as a finite sum.
  Everything here holds in any additive commutative monoid; the extended reals are one
  (their addition is commutative and associative with no finiteness side condition).
-/
import Idealize.ShloMosaic.PureOps.Ideal

open scoped BigOperators

namespace Cert.LibBlockSum

variable {M : Type*} [AddCommMonoid M]

/-- Position `k` of block `i`, for `n` blocks of `m` positions each, is a position below `n * m`. -/
theorem blockIdx_lt {n m i k : ℕ} (hi : i < n) (hk : k < m) : i * m + k < n * m := by
  calc i * m + k < i * m + m := by omega
    _ = (i + 1) * m := by ring
    _ ≤ n * m := Nat.mul_le_mul_right m hi

/-- A sum over `n * m` positions is the sum over the `n` blocks of the sum over the `m` positions
    of each block; position `k` of block `i` is `i * m + k`. -/
theorem sum_blocks_fin (n m : ℕ) (f : Fin (n * m) → M) :
    ∑ j : Fin (n * m), f j
      = ∑ i : Fin n, ∑ k : Fin m, f ⟨i.val * m + k.val, blockIdx_lt i.isLt k.isLt⟩ := by
  rw [← finProdFinEquiv.sum_comp, Fintype.sum_prod_type]
  refine Finset.sum_congr rfl fun i _ => Finset.sum_congr rfl fun k _ => ?_
  congr 1
  ext
  simp only [finProdFinEquiv_apply_val]
  ring

/-- The same regrouping with the block number running over the naturals below `n`. The block number
    is written `i % n`, which is `i` itself there, so that the position is in range for every `i`. -/
theorem sum_blocks_range (n m : ℕ) (hn : 0 < n) (f : Fin (n * m) → M) :
    ∑ j : Fin (n * m), f j
      = ∑ i ∈ Finset.range n, ∑ k : Fin m,
          f ⟨(i % n) * m + k.val, blockIdx_lt (Nat.mod_lt i hn) k.isLt⟩ := by
  rw [sum_blocks_fin n m f,
    ← Fin.sum_univ_eq_sum_range
      (fun i => ∑ k : Fin m, f ⟨(i % n) * m + k.val, blockIdx_lt (Nat.mod_lt i hn) k.isLt⟩) n]
  refine Finset.sum_congr rfl fun i _ => Finset.sum_congr rfl fun k _ => ?_
  congr 1
  ext
  simp only [Nat.mod_eq_of_lt i.isLt]

/-- 8192 positions as 32 blocks of 256, the block number a member of `Fin 32`. -/
theorem sum_blocks_fin32 (f : Fin 8192 → M) :
    ∑ j : Fin 8192, f j
      = ∑ i : Fin 32, ∑ k : Fin 256, f ⟨i.val * 256 + k.val, by omega⟩ :=
  sum_blocks_fin 32 256 f

/-- 8192 positions as 32 blocks of 256, the block number a natural below 32. -/
theorem sum_blocks (f : Fin 8192 → M) :
    ∑ j : Fin 8192, f j
      = ∑ i ∈ Finset.range 32, ∑ k : Fin 256, f ⟨(i % 32) * 256 + k.val, by omega⟩ :=
  sum_blocks_range 32 256 (by norm_num) f

/-- A running total that starts at the first term and adds the next term at every step is, after
    `n` steps, the sum of the first `n + 1` terms. -/
theorem fold_eq_sum (c acc : ℕ → M) (h0 : acc 0 = c 0)
    (hs : ∀ n, acc (n + 1) = acc n + c (n + 1)) (n : ℕ) :
    acc n = ∑ i ∈ Finset.range (n + 1), c i := by
  induction n with
  | zero => simp [h0]
  | succ n ih => rw [hs, ih, Finset.sum_range_succ _ (n + 1)]

end Cert.LibBlockSum
-- ==== Proof.FeatureLaw.lean ====
/-
  The first hidden layer of the attention unit, for one position of one batch row.

  A position holds a target vector `t` and a sequence vector `s`, both of length 64. Its feature vector has
  256 entries: `t`, then `s`, then `t - s`, then the entrywise product `t * s`. The layer multiplies the
  feature vector by a weight matrix `W` with 256 rows; for one output column `w = W(·, j)` that is the sum
  `Σ i, feat i * w i`.

  The same number can be reached with fewer products. Split `w` into its four blocks of 64 rows,
  `w0, w1, w2, w3`. Because `(t - s) * w2 = t * w2 - s * w2`,

      Σ t * w0 + Σ s * w1 + Σ (t - s) * w2 + Σ (t * s) * w3
        = Σ t * (w0 + w2) + ( Σ s * (w1 - w2) + Σ (t * s) * w3 ).

  The right-hand side is a product of `t` with the 64 folded weights `w0 + w2` plus a product of the 128
  numbers `s, t * s` with the 128 weights `w1 - w2, w3`. The identity uses distributivity, which over the
  extended reals holds only away from the infinities: it is stated for finite `t`, `s` and `w`.
-/
import Mathlib
import proofs.«178196_j661424964272_2_alg».proof.Proof.LibBlockSum

open scoped BigOperators

namespace Cert.Attn

/-- The feature vector of one position: `t`, `s`, `t - s`, `t * s`, 64 entries each. -/
def feat {α : Type} [Sub α] [Mul α] (t s : Fin 64 → α) (i : Fin 256) : α :=
  if h0 : i.val < 64 then t ⟨i.val, h0⟩
  else if h1 : i.val < 128 then s ⟨i.val - 64, by omega⟩
  else if h2 : i.val < 192 then t ⟨i.val - 128, by omega⟩ - s ⟨i.val - 128, by omega⟩
  else t ⟨i.val - 192, by omega⟩ * s ⟨i.val - 192, by omega⟩

theorem feat_block0 {α : Type} [Sub α] [Mul α] (t s : Fin 64 → α) (d : Fin 64) :
    feat t s ⟨0 * 64 + d.val, by omega⟩ = t d := by
  unfold feat
  rw [dif_pos (show 0 * 64 + d.val < 64 by omega)]
  exact congrArg t (Fin.ext (by simp))

theorem feat_block1 {α : Type} [Sub α] [Mul α] (t s : Fin 64 → α) (d : Fin 64) :
    feat t s ⟨1 * 64 + d.val, by omega⟩ = s d := by
  unfold feat
  rw [dif_neg (show ¬ 1 * 64 + d.val < 64 by omega), dif_pos (show 1 * 64 + d.val < 128 by omega)]
  exact congrArg s (Fin.ext (by simp))

theorem feat_block2 {α : Type} [Sub α] [Mul α] (t s : Fin 64 → α) (d : Fin 64) :
    feat t s ⟨2 * 64 + d.val, by omega⟩ = t d - s d := by
  unfold feat
  rw [dif_neg (show ¬ 2 * 64 + d.val < 64 by omega), dif_neg (show ¬ 2 * 64 + d.val < 128 by omega),
    dif_pos (show 2 * 64 + d.val < 192 by omega)]
  have e : (⟨2 * 64 + d.val - 128, by omega⟩ : Fin 64) = d := Fin.ext (by simp)
  rw [e]

theorem feat_block3 {α : Type} [Sub α] [Mul α] (t s : Fin 64 → α) (d : Fin 64) :
    feat t s ⟨3 * 64 + d.val, by omega⟩ = t d * s d := by
  unfold feat
  rw [dif_neg (show ¬ 3 * 64 + d.val < 64 by omega), dif_neg (show ¬ 3 * 64 + d.val < 128 by omega),
    dif_neg (show ¬ 3 * 64 + d.val < 192 by omega)]
  have e : (⟨3 * 64 + d.val - 192, by omega⟩ : Fin 64) = d := Fin.ext (by simp)
  rw [e]

/-- The layer's sum over the 256 features, block by block. It only regroups a finite sum, so it holds in any
    commutative monoid under addition, the extended reals included. -/
theorem sum_feat_blocks {α : Type} [AddCommMonoid α] [Sub α] [Mul α] (t s : Fin 64 → α) (w : Fin 256 → α) :
    ∑ i : Fin 256, feat t s i * w i
      = ∑ d : Fin 64, t d * w ⟨0 * 64 + d.val, by omega⟩
        + (∑ d : Fin 64, s d * w ⟨1 * 64 + d.val, by omega⟩
        + (∑ d : Fin 64, (t d - s d) * w ⟨2 * 64 + d.val, by omega⟩
        + ∑ d : Fin 64, (t d * s d) * w ⟨3 * 64 + d.val, by omega⟩)) := by
  rw [Cert.LibBlockSum.sum_blocks_fin 4 64 (fun i : Fin 256 => feat t s i * w i), Fin.sum_univ_four]
  simp only [Fin.val_zero, Fin.val_one, Fin.val_two, show ((3 : Fin 4).val) = 3 from rfl,
    feat_block0, feat_block1, feat_block2, feat_block3, add_assoc]

/-- The sum over the 128 joined entries, half by half. -/
theorem sum_halves {α : Type} [AddCommMonoid α] (f : Fin 128 → α) :
    ∑ k : Fin 128, f k
      = ∑ d : Fin 64, f ⟨0 * 64 + d.val, by omega⟩ + ∑ d : Fin 64, f ⟨1 * 64 + d.val, by omega⟩ := by
  rw [Cert.LibBlockSum.sum_blocks_fin 2 64 f, Fin.sum_univ_two]
  simp only [Fin.val_zero, Fin.val_one]

/-- The regrouping over the reals: folding `w2` into `w0` and `w1`. -/
theorem fold_real (t s w0 w1 w2 w3 : Fin 64 → ℝ) :
    ∑ d, t d * (w0 d + w2 d) + (∑ d, s d * (w1 d - w2 d) + ∑ d, (t d * s d) * w3 d)
      = ∑ d, t d * w0 d + (∑ d, s d * w1 d + (∑ d, (t d - s d) * w2 d + ∑ d, (t d * s d) * w3 d)) := by
  simp only [mul_add, mul_sub, sub_mul, Finset.sum_add_distrib, Finset.sum_sub_distrib]
  ring

/-- A finite sum of reals, read in the extended reals, is the sum of the readings. -/
theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The same regrouping for finite extended reals. -/
theorem fold_ereal (t s w0 w1 w2 w3 : Fin 64 → EReal)
    (ht : ∀ d, t d ≠ ⊤ ∧ t d ≠ ⊥) (hs : ∀ d, s d ≠ ⊤ ∧ s d ≠ ⊥)
    (h0 : ∀ d, w0 d ≠ ⊤ ∧ w0 d ≠ ⊥) (h1 : ∀ d, w1 d ≠ ⊤ ∧ w1 d ≠ ⊥)
    (h2 : ∀ d, w2 d ≠ ⊤ ∧ w2 d ≠ ⊥) (h3 : ∀ d, w3 d ≠ ⊤ ∧ w3 d ≠ ⊥) :
    ∑ d, t d * (w0 d + w2 d) + (∑ d, s d * (w1 d - w2 d) + ∑ d, (t d * s d) * w3 d)
      = ∑ d, t d * w0 d + (∑ d, s d * w1 d + (∑ d, (t d - s d) * w2 d + ∑ d, (t d * s d) * w3 d)) := by
  lift t to Fin 64 → ℝ using ht
  lift s to Fin 64 → ℝ using hs
  lift w0 to Fin 64 → ℝ using h0
  lift w1 to Fin 64 → ℝ using h1
  lift w2 to Fin 64 → ℝ using h2
  lift w3 to Fin 64 → ℝ using h3
  simp only [← EReal.coe_add, ← EReal.coe_sub, ← EReal.coe_mul, ← coe_sum]
  exact congrArg _ (fold_real t s w0 w1 w2 w3)

end Cert.Attn
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.LibRowSoftmax.lean ====
/-
  A row softmax, read at an entry.

  The softmax of a row `f` of `b` extended reals is taken the stable way: the row's largest entry `M` (a maximum
  started from -∞) is subtracted from every entry before exponentiating, and each exponential is divided by the sum
  of the row's exponentials:  softmax f q = exp (f q - M) / Σ j, exp (f j - M).

  A kernel spells this on an `[a, b]` block with two lane reductions (a maximum and a sum along the second axis),
  each kept as an `[a, 1]` column and laid back along the row. A host program spells it with two reductions along
  the second axis, each broadcast back to a column and then to the row, and takes one more maximum with -∞ before
  subtracting. Over the extended reals both, read at entry `(p, q)`, are the softmax of row `p` at `q`.
-/
import Idealize.ShloMosaic.Lib.ValueIdx
import Idealize.ShloMosaic.Lib.IdealHost
import Idealize.ShloMosaic.PureOps.Ideal.Laws
import proofs.«178196_j661424964272_2_alg».proof.Proof.LibColumn

noncomputable section

open scoped BigOperators

namespace Idealize.ShloMosaic.RowSoftmax

open Idealize.ShloMosaic Idealize.ShloMosaic.ValueIdx Idealize.ShloMosaic.Column

/-- The largest entry of a row, started from -∞. -/
def rowMax {b : ℕ} (f : Fin b → EReal) : EReal := (Finset.univ : Finset (Fin b)).fold max ⊥ f

/-- Entry `q` of the softmax of the row `f`. -/
def softmaxRow {b : ℕ} (f : Fin b → EReal) (q : Fin b) : EReal :=
  Ideal.div (Ideal.exp (f q - rowMax f)) (∑ j : Fin b, Ideal.exp (f j - rowMax f))

/-- The f32 pattern of -∞ is the bottom of the extended reals. -/
theorem ofBits_negInf_f32 : Ideal.ofBits .f32 0xFF800000#32 = ⊥ := by simp [Ideal.ofBits, Ideal.ieee]

/-- Dividing by one changes nothing, at the infinities too. -/
theorem div_one (x : EReal) : Ideal.div x 1 = x := by
  unfold Ideal.div
  rw [if_neg one_ne_zero, inv_one, mul_one]

/-- Row `p` of an `[a, b]` array with coordinate `k` put back on the reduced second axis is entry `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-! ## The kernel's two lane reductions -/

/-- A lane maximum from -∞ along the second axis, at row `p`, is the row's largest entry. -/
theorem lane_max_apply {a b : ℕ} (L : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ) (p : Fin a) :
    multiReduction .maximumf [1] ⟨1, ![a]⟩ L 0xFF800000#32 h hφ hacc (ix1 p) = rowMax fun j => L (ix2 p j) := by
  rw [Ideal.multiReduction_maximumf_single]
  show Finset.fold max (Ideal.ofBits .f32 0xFF800000#32) _ _ = _
  rw [ofBits_negInf_f32]
  unfold rowMax
  exact congrArg (fun f => Finset.fold max ⊥ f (Finset.univ : Finset (Fin b)))
    (funext fun k => congrArg L (lift_row h p k))

/-- A lane sum from zero along the second axis, at row `p`, is the sum of the row's entries. -/
theorem lane_sum_apply {a b : ℕ} (E : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ) (p : Fin a) :
    multiReduction .add [1] ⟨1, ![a]⟩ E 0x00000000#32 h hφ hacc (ix1 p) = ∑ j : Fin b, E (ix2 p j) := by
  rw [Ideal.multiReduction_add_single]
  exact Finset.sum_congr rfl fun k _ => congrArg E (lift_row h p k)

section kernel
variable {a b : ℕ} (L : FVec Ideal ⟨2, ![a, b]⟩ .f32)
  (hr : (⟨2, ![a, b]⟩ : Shape).Reduces [1] (⟨1, ![a]⟩ : Shape))
  (hc : (⟨1, ![a]⟩ : Shape).ShapeCasts ⟨2, ![a, 1]⟩)
  (hb : (⟨2, ![a, 1]⟩ : Shape).Broadcasts ⟨2, ![a, b]⟩)
  (hφ : FKind.Formats .f32) (hmax : (0xFF800000#32 : BitVec 32) = FKind.maximumf.neutral .f32 hφ)

/-- The kernel's shifted exponentials: entry `(p, q)` is `exp` of the entry less its row's largest. -/
theorem lane_shifted_exp_apply (p : Fin a) (q : Fin b) :
    exp (subf L (broadcastTo ⟨2, ![a, b]⟩
      (shapeCast ⟨2, ![a, 1]⟩ (multiReduction .maximumf [1] ⟨1, ![a]⟩ L 0xFF800000#32 hr hφ hmax) hc) hb)) (ix2 p q)
      = Ideal.exp (L (ix2 p q) - rowMax fun j => L (ix2 p j)) := by
  show Ideal.exp (L (ix2 p q) - broadcastTo ⟨2, ![a, b]⟩
      (shapeCast ⟨2, ![a, 1]⟩ (multiReduction .maximumf [1] ⟨1, ![a]⟩ L 0xFF800000#32 hr hφ hmax) hc) hb (ix2 p q)) = _
  rw [broadcastTo_a1_ab_apply, shapeCast_a_a1_apply, lane_max_apply]

/-- The kernel's row softmax of an `[a, b]` block, read at `(p, q)`. -/
theorem lane_softmax_apply (hφ' : FKind.Formats .f32)
    (hadd : (0x00000000#32 : BitVec 32) = FKind.add.neutral .f32 hφ') (p : Fin a) (q : Fin b) :
    divf (exp (subf L (broadcastTo ⟨2, ![a, b]⟩
        (shapeCast ⟨2, ![a, 1]⟩ (multiReduction .maximumf [1] ⟨1, ![a]⟩ L 0xFF800000#32 hr hφ hmax) hc) hb)))
      (broadcastTo ⟨2, ![a, b]⟩ (shapeCast ⟨2, ![a, 1]⟩ (multiReduction .add [1] ⟨1, ![a]⟩
        (exp (subf L (broadcastTo ⟨2, ![a, b]⟩
          (shapeCast ⟨2, ![a, 1]⟩ (multiReduction .maximumf [1] ⟨1, ![a]⟩ L 0xFF800000#32 hr hφ hmax) hc) hb)))
        0x00000000#32 hr hφ' hadd) hc) hb) (ix2 p q)
      = softmaxRow (fun j => L (ix2 p j)) q := by
  rw [divf_apply, broadcastTo_a1_ab_apply, shapeCast_a_a1_apply, lane_sum_apply]
  unfold softmaxRow
  simp only [lane_shifted_exp_apply L hr hc hb hφ hmax]

end kernel

/-! ## The host's two reductions -/

/-- The host's maximum from -∞ along the second axis, at row `p`, is the row's largest entry. -/
theorem host_max_apply {a b : ℕ} (L : FVec Ideal ⟨2, ![a, b]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf L (constant (F := Ideal) (⟨0, ![]⟩ : Shape) .f32 0xFF800000#32) h' hu (ix1 p)
      = rowMax fun j => L (ix2 p j) := by
  rw [Host.reduce_eq_fold_single FloatOps.maximumf L _ h' h hu]
  show Finset.fold max (Ideal.ofBits .f32 0xFF800000#32) _ _ = _
  rw [ofBits_negInf_f32]
  unfold rowMax
  exact congrArg (fun f => Finset.fold max ⊥ f (Finset.univ : Finset (Fin b)))
    (funext fun k => congrArg L (lift_row h p k))

/-- The host's sum from zero along the second axis, at row `p`, is the sum of the row's entries. -/
theorem host_sum_apply {a b : ℕ} (E : FVec Ideal ⟨2, ![a, b]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd E (constant (F := Ideal) (⟨0, ![]⟩ : Shape) .f32 0x00000000#32) h' hu (ix1 p)
      = ∑ j : Fin b, E (ix2 p j) := by
  rw [hostReduceAdd_apply, Ideal.hostReduceAdd_single h' h]
  show Ideal.ofBits .f32 0x00000000#32 + _ = _
  rw [Ideal.ofBits_zero_f32, zero_add]
  exact Finset.sum_congr rfl fun k _ => congrArg E (lift_row h p k)

section host
variable {a b : ℕ} (L : FVec Ideal ⟨2, ![a, b]⟩ .f32)
  (hr' : (⟨2, ![a, b]⟩ : Shape).ReducesTo [1] (⟨1, ![a]⟩ : Shape))
  (hr : (⟨2, ![a, b]⟩ : Shape).Reduces [1] (⟨1, ![a]⟩ : Shape)) (hu : 0 < (⟨0, ![]⟩ : Shape).numel)
  (h0 : (⟨0, ![]⟩ : Shape).BroadcastsInDim (⟨1, ![a]⟩ : Shape) ![])
  (h1 : (⟨1, ![a]⟩ : Shape).BroadcastsInDim ⟨2, ![a, 1]⟩ ![0])
  (h2 : (⟨2, ![a, 1]⟩ : Shape).BroadcastsInDim ⟨2, ![a, b]⟩ ![0, 1])

include hr

/-- The host's shifted exponentials: the row's largest entry is first met with -∞ once more, which changes nothing. -/
theorem host_shifted_exp_apply (p : Fin a) (q : Fin b) :
    Host.exp (subf L (broadcastInDim ⟨2, ![a, b]⟩ ![0, 1] h2 (broadcastInDim ⟨2, ![a, 1]⟩ ![0] h1
      (maximumf (broadcastInDim (⟨1, ![a]⟩ : Shape) ![] h0 (constant (F := Ideal) (⟨0, ![]⟩ : Shape) .f32 0xFF800000#32))
        (Host.reduce FloatOps.maximumf L (constant (F := Ideal) (⟨0, ![]⟩ : Shape) .f32 0xFF800000#32) hr' hu))))) (ix2 p q)
      = Ideal.exp (L (ix2 p q) - rowMax fun j => L (ix2 p j)) := by
  show Ideal.exp (L (ix2 p q) - broadcastInDim ⟨2, ![a, b]⟩ ![0, 1] h2 (broadcastInDim ⟨2, ![a, 1]⟩ ![0] h1
      (maximumf (broadcastInDim (⟨1, ![a]⟩ : Shape) ![] h0 (constant (F := Ideal) (⟨0, ![]⟩ : Shape) .f32 0xFF800000#32))
        (Host.reduce FloatOps.maximumf L (constant (F := Ideal) (⟨0, ![]⟩ : Shape) .f32 0xFF800000#32) hr' hu))) (ix2 p q)) = _
  rw [broadcastInDim_a1_ab_apply, broadcastInDim_a_a1_apply, maximumf_apply, Column.broadcastInDim_scalar_apply,
    host_max_apply L hr' hr hu p]
  show Ideal.exp (L (ix2 p q) - max (Ideal.ofBits .f32 0xFF800000#32) _) = _
  rw [ofBits_negInf_f32, max_eq_right bot_le]

/-- The host's row softmax of an `[a, b]` array, read at `(p, q)`. -/
theorem host_softmax_apply (p : Fin a) (q : Fin b) :
    Host.divf (Host.exp (subf L (broadcastInDim ⟨2, ![a, b]⟩ ![0, 1] h2 (broadcastInDim ⟨2, ![a, 1]⟩ ![0] h1
        (maximumf (broadcastInDim (⟨1, ![a]⟩ : Shape) ![] h0 (constant (F := Ideal) (⟨0, ![]⟩ : Shape) .f32 0xFF800000#32))
          (Host.reduce FloatOps.maximumf L (constant (F := Ideal) (⟨0, ![]⟩ : Shape) .f32 0xFF800000#32) hr' hu))))))
      (broadcastInDim ⟨2, ![a, b]⟩ ![0, 1] h2 (broadcastInDim ⟨2, ![a, 1]⟩ ![0] h1
        (Host.reduceAdd (Host.exp (subf L (broadcastInDim ⟨2, ![a, b]⟩ ![0, 1] h2 (broadcastInDim ⟨2, ![a, 1]⟩ ![0] h1
          (maximumf (broadcastInDim (⟨1, ![a]⟩ : Shape) ![] h0 (constant (F := Ideal) (⟨0, ![]⟩ : Shape) .f32 0xFF800000#32))
            (Host.reduce FloatOps.maximumf L (constant (F := Ideal) (⟨0, ![]⟩ : Shape) .f32 0xFF800000#32) hr' hu))))))
          (constant (F := Ideal) (⟨0, ![]⟩ : Shape) .f32 0x00000000#32) hr' hu))) (ix2 p q)
      = softmaxRow (fun j => L (ix2 p j)) q := by
  rw [hostDivf_apply, broadcastInDim_a1_ab_apply, broadcastInDim_a_a1_apply, host_sum_apply _ hr' hr hu p]
  unfold softmaxRow
  simp only [host_shifted_exp_apply L hr' hr hu h0 h1 h2]

end host

end Idealize.ShloMosaic.RowSoftmax

end
-- ==== Proof.AttnRow.lean ====
/-
  One batch row of the attention unit, as mathematics.

  A batch row has a target vector `t` (64 numbers), 200 sequence vectors `sq s` (64 numbers each) and 200 mask
  numbers `mk s`. For each position `s`:

    h1 s j = max (Σ i, feat t (sq s) i * W1 i j + b1 j) 0          (80 hidden units)
    h2 s k = max (Σ j, h1 s j * W2 j k + b2 k) 0                   (40 hidden units)
    score s = (Σ k, h2 s k * w3 k + b3) * mk s + c * (1 - mk s)    (c a large negative constant)

  and the row's result is the softmax of `score` over the 200 positions.

  Everything after `h1` is one function `attnRow` of `h1`. The first layer can be computed in two ways: as
  written above (`hidden1`), or with the weights folded and the inputs joined (`hidden1K`: `t` against
  `W1_t + W1_diff`, and the 128 numbers `sq s, t * sq s` against the 128 weights `W1_seq - W1_diff, W1_prod`).
  For finite `t`, `sq` and `W1` the two agree (`hidden1K_eq`), by the regrouping of FeatureLaw.
-/
import proofs.«178196_j661424964272_2_alg».proof.Proof.FeatureLaw
import proofs.«178196_j661424964272_2_alg».proof.Proof.LibRowSoftmax

noncomputable section

open scoped BigOperators

namespace Cert.Attn

open Idealize.ShloMosaic

/-- The 128 joined inputs of one position: the sequence vector, then its entrywise product with the target. -/
def joined (t s : Fin 64 → EReal) (k : Fin 128) : EReal :=
  if h : k.val < 64 then s ⟨k.val, h⟩ else t ⟨k.val - 64, by omega⟩ * s ⟨k.val - 64, by omega⟩

theorem joined_block0 (t s : Fin 64 → EReal) (d : Fin 64) : joined t s ⟨0 * 64 + d.val, by omega⟩ = s d := by
  unfold joined
  rw [dif_pos (show 0 * 64 + d.val < 64 by omega)]
  exact congrArg s (Fin.ext (by simp))

theorem joined_block1 (t s : Fin 64 → EReal) (d : Fin 64) : joined t s ⟨1 * 64 + d.val, by omega⟩ = t d * s d := by
  unfold joined
  rw [dif_neg (show ¬ 1 * 64 + d.val < 64 by omega)]
  have e : (⟨1 * 64 + d.val - 64, by omega⟩ : Fin 64) = d := Fin.ext (by simp)
  rw [e]

/-- The first layer's pre-activation sum, folded: for finite data it is the sum over the 256 features. -/
theorem layer1_fold (t s : Fin 64 → EReal) (w : Fin 256 → EReal) (wt : Fin 64 → EReal) (wc : Fin 128 → EReal)
    (ht : ∀ d, t d ≠ ⊤ ∧ t d ≠ ⊥) (hs : ∀ d, s d ≠ ⊤ ∧ s d ≠ ⊥) (hw : ∀ i, w i ≠ ⊤ ∧ w i ≠ ⊥)
    (hwt : ∀ d : Fin 64, wt d = w ⟨0 * 64 + d.val, by omega⟩ + w ⟨2 * 64 + d.val, by omega⟩)
    (hw0 : ∀ d : Fin 64, wc ⟨0 * 64 + d.val, by omega⟩ = w ⟨1 * 64 + d.val, by omega⟩ - w ⟨2 * 64 + d.val, by omega⟩)
    (hw1 : ∀ d : Fin 64, wc ⟨1 * 64 + d.val, by omega⟩ = w ⟨3 * 64 + d.val, by omega⟩) :
    ∑ d, t d * wt d + ∑ k, joined t s k * wc k = ∑ i, feat t s i * w i := by
  rw [sum_feat_blocks, sum_halves]
  simp only [hwt, hw0, hw1, joined_block0, joined_block1]
  exact fold_ereal t s (fun d => w ⟨0 * 64 + d.val, by omega⟩) (fun d => w ⟨1 * 64 + d.val, by omega⟩)
    (fun d => w ⟨2 * 64 + d.val, by omega⟩) (fun d => w ⟨3 * 64 + d.val, by omega⟩) ht hs
    (fun _ => hw _) (fun _ => hw _) (fun _ => hw _) (fun _ => hw _)

/-- The first hidden layer as the reference writes it. -/
def hidden1 (t : Fin 64 → EReal) (sq : Fin 200 → Fin 64 → EReal) (W : Fin 256 → Fin 80 → EReal) (b1 : Fin 80 → EReal)
    (s : Fin 200) (j : Fin 80) : EReal :=
  max (∑ i, feat t (sq s) i * W i j + b1 j) 0

/-- The first hidden layer as the kernel writes it: folded weights `Wt`, joined inputs against joined weights `Wc`. -/
def hidden1K (t : Fin 64 → EReal) (sq : Fin 200 → Fin 64 → EReal) (Wt : Fin 64 → Fin 80 → EReal)
    (Wc : Fin 128 → Fin 80 → EReal) (b1 : Fin 80 → EReal) (s : Fin 200) (j : Fin 80) : EReal :=
  max ((∑ d, t d * Wt d j + ∑ k, joined t (sq s) k * Wc k j) + b1 j) 0

/-- On finite data the two first layers are the same. -/
theorem hidden1K_eq (t : Fin 64 → EReal) (sq : Fin 200 → Fin 64 → EReal) (W : Fin 256 → Fin 80 → EReal)
    (Wt : Fin 64 → Fin 80 → EReal) (Wc : Fin 128 → Fin 80 → EReal) (b1 : Fin 80 → EReal)
    (ht : ∀ d, t d ≠ ⊤ ∧ t d ≠ ⊥) (hs : ∀ s d, sq s d ≠ ⊤ ∧ sq s d ≠ ⊥) (hW : ∀ i j, W i j ≠ ⊤ ∧ W i j ≠ ⊥)
    (hWt : ∀ (d : Fin 64) j, Wt d j = W ⟨0 * 64 + d.val, by omega⟩ j + W ⟨2 * 64 + d.val, by omega⟩ j)
    (hW0 : ∀ (d : Fin 64) j, Wc ⟨0 * 64 + d.val, by omega⟩ j = W ⟨1 * 64 + d.val, by omega⟩ j - W ⟨2 * 64 + d.val, by omega⟩ j)
    (hW1 : ∀ (d : Fin 64) j, Wc ⟨1 * 64 + d.val, by omega⟩ j = W ⟨3 * 64 + d.val, by omega⟩ j) :
    hidden1K t sq Wt Wc b1 = hidden1 t sq W b1 := by
  funext s j
  unfold hidden1K hidden1
  rw [layer1_fold t (sq s) (fun i => W i j) (fun d => Wt d j) (fun k => Wc k j) ht (hs s) (fun i => hW i j)
    (fun d => hWt d j) (fun d => hW0 d j) (fun d => hW1 d j)]

/-- The masked score of position `s`, from the first hidden layer. -/
def scoreRow (h1 : Fin 200 → Fin 80 → EReal) (W2 : Fin 80 → Fin 40 → EReal) (b2 : Fin 40 → EReal) (w3 : Fin 40 → EReal)
    (b3 : EReal) (mk : Fin 200 → EReal) (s : Fin 200) : EReal :=
  (∑ k, max (∑ j, h1 s j * W2 j k + b2 k) 0 * w3 k + b3) * mk s
    + Ideal.ofBits .f32 0xCE6E6B28#32 * (Ideal.ofBits .f32 0x3F800000#32 - mk s)

/-- The row's result: the softmax of the masked scores over the 200 positions. -/
def attnRow (h1 : Fin 200 → Fin 80 → EReal) (W2 : Fin 80 → Fin 40 → EReal) (b2 : Fin 40 → EReal) (w3 : Fin 40 → EReal)
    (b3 : EReal) (mk : Fin 200 → EReal) : Fin 200 → EReal :=
  RowSoftmax.softmaxRow (scoreRow h1 W2 b2 w3 b3 mk)

end Cert.Attn

end
-- ==== Proof.LibRowBatch.lean ====
/-
  Rows laid over groups of rows.

  An `[a, c, b]` array holds `a` groups of `c` rows of `b` numbers.

  * An `[a, b]` matrix gives each group one row: kept as `[a, 1, b]` and broadcast to `[a, c, b]`, every row of
    group `p` is row `p` of the matrix.
  * A `[b]` vector, or a `[1, b]` row, kept as `[1, 1, b]` and broadcast to `[a, c, b]` gives every row of every
    group the same `b` numbers.
  * Summing an `[a, c, b]` array along its last axis leaves, at `(p, s)`, the sum of row `s` of group `p`.
  * Arrays joined along the last axis: entry `(p, s, pre + q)` of the whole is entry `(p, s, q)` of the piece
    that starts at position `pre`.

  None of these changes a value; each is read here at an index named by its coordinates.
-/
import Idealize.ShloMosaic.Lib.ValueIdx
import Idealize.ShloMosaic.Lib.Pipeline.Value
import Idealize.ShloMosaic.PureOps.Ideal.Laws

noncomputable section

open scoped BigOperators

namespace Idealize.ShloMosaic.RowBatch

open Idealize.ShloMosaic Idealize.ShloMosaic.ValueIdx

variable {α : Type}

/-- An `[a, b]` matrix kept as `[a, 1, b]` reads, at `(p, u, q)`, the matrix's entry `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, 1, b]` array broadcast to `[a, c, b]` reads, at `(p, s, q)`, its entry `(p, 0, q)`. -/
theorem broadcastTo_a1b_acb_apply {a c b : ℕ} (v : (⟨3, ![a, 1, b]⟩ : Shape).Idx → α)
    (h : (⟨3, ![a, 1, b]⟩ : Shape).Broadcasts ⟨3, ![a, c, b]⟩) (p : Fin a) (s : Fin c) (q : Fin b) :
    broadcastTo ⟨3, ![a, c, b]⟩ v h (ix3 p s q) = v (ix3 p (0 : Fin 1) q) := by
  refine broadcastTo_apply v h (ix3 p s q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if b = 1 then 0 else q.val
    split
    · have := q.isLt; omega
    · rfl

/-- A `[b]` vector kept as `[1, 1, b]` reads, at `(u, v, q)`, the vector's entry `q`. -/
theorem shapeCast_b_11b_apply {b : ℕ} (x : (⟨1, ![b]⟩ : Shape).Idx → α)
    (h : (⟨1, ![b]⟩ : Shape).ShapeCasts ⟨3, ![1, 1, b]⟩) (u v : Fin 1) (q : Fin b) :
    shapeCast ⟨3, ![1, 1, b]⟩ x h (ix3 u v q) = x (ix1 q) :=
  shapeCast_apply x h _ _ (by
    have hu : u.val = 0 := by omega
    have hv : v.val = 0 := by omega
    rw [Shape.rowMajor_val_three, Shape.rowMajor_val_one]
    show q.val = (u.val * 1 + v.val) * b + q.val
    rw [hu, hv]
    simp)

/-- A `[1, b]` row kept as `[1, 1, b]` reads, at `(u, v, q)`, the row's entry `q`. -/
theorem shapeCast_1b_11b_apply {b : ℕ} (x : (⟨2, ![1, b]⟩ : Shape).Idx → α)
    (h : (⟨2, ![1, b]⟩ : Shape).ShapeCasts ⟨3, ![1, 1, b]⟩) (u v : Fin 1) (q : Fin b) :
    shapeCast ⟨3, ![1, 1, b]⟩ x h (ix3 u v q) = x (ix2 (0 : Fin 1) q) :=
  shapeCast_apply x h _ _ (by
    have hu : u.val = 0 := by omega
    have hv : v.val = 0 := by omega
    rw [Shape.rowMajor_val_three, Shape.rowMajor_val_two]
    show (0 : Fin 1).val * b + q.val = (u.val * 1 + v.val) * b + q.val
    rw [hu, hv]
    simp)

/-- A `[1, 1, b]` array broadcast to `[a, c, b]` reads, at `(p, s, q)`, its entry `(0, 0, q)`. -/
theorem broadcastTo_11b_acb_apply {a c b : ℕ} (v : (⟨3, ![1, 1, b]⟩ : Shape).Idx → α)
    (h : (⟨3, ![1, 1, b]⟩ : Shape).Broadcasts ⟨3, ![a, c, b]⟩) (p : Fin a) (s : Fin c) (q : Fin b) :
    broadcastTo ⟨3, ![a, c, b]⟩ v h (ix3 p s q) = v (ix3 (0 : Fin 1) (0 : Fin 1) q) := by
  refine broadcastTo_apply v h (ix3 p s q) (ix3 (0 : Fin 1) (0 : Fin 1) q) fun ax => ?_
  match ax with
  | ⟨0, _⟩ => rfl
  | ⟨1, _⟩ => rfl
  | ⟨2, _⟩ =>
    show q.val = if b = 1 then 0 else q.val
    split
    · have := q.isLt; omega
    · rfl

/-- Row `s` of group `p` with coordinate `k` put back on the reduced last axis is entry `(p, s, k)`. -/
theorem lift_last {a c b : ℕ} (h : (⟨3, ![a, c, b]⟩ : Shape).Reduces [2] (⟨2, ![a, c]⟩ : Shape)) (p : Fin a) (s : Fin c)
    (k : Fin ((⟨3, ![a, c, b]⟩ : Shape).size 2)) : h.lift (ix2 p s) k = ix3 p s (⟨k.val, k.isLt⟩ : Fin b) := by
  funext d; apply Fin.ext
  fin_cases d <;> rfl

/-- A lane sum from zero along the last axis, at `(p, s)`, is the sum of row `s` of group `p`. -/
theorem lane_sum_last_apply {a c b : ℕ} (E : FVec Ideal ⟨3, ![a, c, b]⟩ .f32)
    (h : (⟨3, ![a, c, b]⟩ : Shape).Reduces [2] (⟨2, ![a, c]⟩ : Shape)) (hφ : FKind.Formats .f32)
    (hacc : (0x00000000#32 : BitVec 32) = FKind.add.neutral .f32 hφ) (p : Fin a) (s : Fin c) :
    multiReduction .add [2] ⟨2, ![a, c]⟩ E 0x00000000#32 h hφ hacc (ix2 p s) = ∑ k : Fin b, E (ix3 p s k) := by
  rw [Ideal.multiReduction_add_single]
  exact Finset.sum_congr rfl fun k _ => congrArg E (lift_last h p s k)

/-- Arrays joined along the last axis: entry `(p, s, r)` of the whole, where `r = pre + q` and `pre` is the total
    length of the pieces before piece `k`, is entry `(p, s, q)` of piece `k`. -/
theorem concat_last_apply {a c b n : ℕ} (xs : List ((s : Shape) × (s.Idx → α)))
    (h : Shape.Concatenates (xs.map (·.1)) (⟨3, ![a, c, n]⟩ : Shape) (2 : Fin 3))
    (k : ℕ) (hk : k < xs.length) (x : (⟨3, ![a, c, b]⟩ : Shape).Idx → α)
    (hxk : xs[k] = ⟨(⟨3, ![a, c, b]⟩ : Shape), x⟩) (pre : ℕ)
    (hpre : (((xs.take k).map (·.1)).map fun s : Shape =>
        if h : s.rank = (⟨3, ![a, c, n]⟩ : Shape).rank then s.size ((2 : Fin 3).cast h.symm) else 0).sum = pre)
    (p : Fin a) (s : Fin c) (r : Fin n) (q : Fin b) (hr : pre + q.val = r.val) :
    concatenate (⟨3, ![a, c, n]⟩ : Shape) (2 : Fin 3) xs h (ix3 p s r) = x (ix3 p s q) :=
  concatenate_apply_piece (t := (⟨3, ![a, c, n]⟩ : Shape)) (2 : Fin 3) xs h (ix3 p s r) k hk (⟨3, ![a, c, b]⟩ : Shape) x hxk rfl
    pre hpre (ix3 p s q)
    (fun ax hax => by
      match ax, hax with
      | ⟨0, _⟩, _ => rfl
      | ⟨1, _⟩, _ => rfl
      | ⟨2, _⟩, hax => exact absurd rfl hax)
    hr

end Idealize.ShloMosaic.RowBatch

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibFlattenRows.lean ====
/-
  Rows of rows laid end to end, and cut again.

  An `[a, b, d]` array holds `a` groups of `b` rows of `d` numbers.  Flattening its two leading axes lays all `a * b`
  rows one after another: row `r = p * b + q` of the `[n, d]` result is row `q` of group `p`.  Splitting the leading
  axis of an `[n, d]` array into `a` groups of `b` is the same step backwards.  Neither changes a value; each entry of
  the result is one entry of the operand, named here by its coordinates.
-/
import Idealize.ShloMosaic.Lib.ValueIdx
import Idealize.ShloMosaic.Lib.Pipeline.Value

noncomputable section

namespace Idealize.ShloMosaic.FlattenRows

open Idealize.ShloMosaic Idealize.ShloMosaic.ValueIdx

variable {α : Type}

/-- An `[a, b, d]` array with its two leading axes flattened reads, at `(r, l)` with `r = p * b + q`, the array's
    entry `(p, q, l)`. -/
theorem shapeCast_flatten2_apply {a b d n : ℕ} (x : (⟨3, ![a, b, d]⟩ : Shape).Idx → α)
    (h : (⟨3, ![a, b, d]⟩ : Shape).ShapeCasts ⟨2, ![n, d]⟩) (p : Fin a) (q : Fin b) (l : Fin d)
    (r : Fin n) (hr : r.val = p.val * b + q.val) :
    shapeCast ⟨2, ![n, d]⟩ x h (ix2 r l) = x (ix3 p q l) :=
  shapeCast_apply x h _ _ (by
    rw [Shape.rowMajor_val_three, Shape.rowMajor_val_two]
    show (p.val * b + q.val) * d + l.val = r.val * d + l.val
    rw [hr])

/-- The same step backwards: an `[n, d]` array with its leading axis split in two reads, at `(p, q, l)`, the array's
    entry `(p * b + q, l)`. -/
theorem shapeCast_split2_apply {a b d n : ℕ} (y : (⟨2, ![n, d]⟩ : Shape).Idx → α)
    (h : (⟨2, ![n, d]⟩ : Shape).ShapeCasts ⟨3, ![a, b, d]⟩) (p : Fin a) (q : Fin b) (l : Fin d)
    (r : Fin n) (hr : r.val = p.val * b + q.val) :
    shapeCast ⟨3, ![a, b, d]⟩ y h (ix3 p q l) = y (ix2 r l) :=
  shapeCast_apply y h _ _ (by
    rw [Shape.rowMajor_val_three, Shape.rowMajor_val_two]
    show r.val * d + l.val = (p.val * b + q.val) * d + l.val
    rw [hr])

end Idealize.ShloMosaic.FlattenRows

end
-- ==== Proof.LibUnitBroadcast.lean ====
/-
  One number spread over a matrix.

  A `[1, 1]` array holds one number. Broadcasting it to `[a, b]` gives every entry of the matrix that number:
  both axes of the operand are unit axes, so every index of the result reads the operand's only entry.
-/
import Idealize.ShloMosaic.Lib.ValueIdx
import Idealize.ShloMosaic.Lib.Pipeline.Value

noncomputable section

namespace Idealize.ShloMosaic.UnitBroadcast

open Idealize.ShloMosaic Idealize.ShloMosaic.ValueIdx

variable {α : Type}

/-- A `[1, 1]` array broadcast to `[a, b]` reads, at every `(p, q)`, the operand's one entry. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Idealize.ShloMosaic.UnitBroadcast

end
-- ==== Proof.KernelRow.lean ====
/-
  What the kernel's body computes for one block of 64 batch rows, read at an entry.

  The body holds a block of sequence vectors `[64, 200, 64]`, a block of targets `[64, 64]`, a block of masks
  `[64, 200]`, the folded weights `Wt [64, 80]`, the joined weights `Wc [128, 80]`, and the remaining layers'
  weights and biases. It lays the 64 · 200 positions out as 12800 rows, forms for each the 128 joined inputs
  (the sequence vector, then its entrywise product with the row's target), and takes two matrix products for the
  first layer and one for the second; the third layer is a product with one row of 40 weights summed along the
  last axis; the masked scores go through a row softmax.

  Read at entry `(p, s)` — batch row `p` of the block, position `s` — the result is `attnRow` of that batch
  row's data, with the first layer in the kernel's folded spelling `hidden1K`. Each stage below is one step of
  that reading; nothing here needs the data to be finite.
-/
import proofs.«178196_j661424964272_2_alg».proof.Proof.Gen.KernelIdeal.Skeleton
import proofs.«178196_j661424964272_2_alg».proof.Proof.AttnRow
import proofs.«178196_j661424964272_2_alg».proof.Proof.LibRowBatch
import proofs.«178196_j661424964272_2_alg».proof.Proof.LibDenseBlock
import proofs.«178196_j661424964272_2_alg».proof.Proof.LibFlattenRows
import proofs.«178196_j661424964272_2_alg».proof.Proof.LibUnitBroadcast
import proofs.«178196_j661424964272_2_alg».proof.Proof.LibRowSoftmax

noncomputable section

open scoped BigOperators

namespace Cert.KernelIdeal.Row

open Cert.KernelIdeal Cert.KernelIdeal.Gen Idealize.ShloMosaic Idealize.ShloMosaic.ValueIdx Cert.Attn

variable (P0 : FVec Ideal S64x200x64 .f32) (P1 : FVec Ideal S64x64 .f32) (P2 : FVec Ideal S64x80 .bf16)
  (P3 : FVec Ideal S128x80 .bf16) (P4 : FVec Ideal S80 .f32) (P5 : FVec Ideal S80x40 .bf16) (P6 : FVec Ideal S40 .f32)
  (P7 : FVec Ideal S1x40 .f32) (P8 : FVec Ideal S1 .f32) (P9 : IVec S64x200 32)
  (H : FVec Ideal S64x200x40 .f32)

/-! ## The first layer -/

/-- Each batch row's target, repeated for its 200 positions. -/
def tgtRows : FVec Ideal S64x200x64 .f32 :=
  broadcastTo S64x200x64 (shapeCast S64x1x64 P1 shapeCasts_S64x64_S64x1x64) broadcasts_S64x1x64_S64x200x64

theorem tgtRows_apply (p : Fin 64) (s : Fin 200) (d : Fin 64) : tgtRows P1 (ix3 p s d) = P1 (ix2 p d) :=
  (RowBatch.broadcastTo_a1b_acb_apply (a := 64) (c := 200) (b := 64) _ _ p s d).trans
    (RowBatch.shapeCast_ab_a1b_apply (a := 64) (b := 64) _ _ p 0 d)

/-- The 128 joined inputs of every position, the positions laid out as 12800 rows. -/
def joinedIn : FVec Ideal S12800x128 .bf16 :=
  shapeCast S12800x128
    (concatenate S64x200x128 2 [⟨S64x200x64, truncf .bf16 P0 bitsLt_bf16_f32⟩,
      ⟨S64x200x64, truncf .bf16 (mulf (tgtRows P1) P0) bitsLt_bf16_f32⟩]
      concatenates_S64x200x64_S64x200x64_S64x200x128_d2)
    shapeCasts_S64x200x128_S12800x128

/-- Row `r = p · 200 + s` holds position `s` of batch row `p`: its sequence vector, then the product with the target. -/
theorem joinedIn_apply (p : Fin 64) (s : Fin 200) (k : Fin 128) (r : Fin 12800) (hr : r.val = p.val * 200 + s.val) :
    joinedIn P0 P1 (ix2 r k) = joined (fun d => P1 (ix2 p d)) (fun d => P0 (ix3 p s d)) k := by
  unfold joinedIn
  refine (FlattenRows.shapeCast_flatten2_apply (a := 64) (b := 200) (d := 128) (n := 12800) _ _ p s k r hr).trans ?_
  unfold joined
  by_cases hk : k.val < 64
  · rw [dif_pos hk]
    exact RowBatch.concat_last_apply (a := 64) (c := 200) (b := 64) (n := 128)
      [⟨S64x200x64, truncf .bf16 P0 bitsLt_bf16_f32⟩, ⟨S64x200x64, truncf .bf16 (mulf (tgtRows P1) P0) bitsLt_bf16_f32⟩]
      concatenates_S64x200x64_S64x200x64_S64x200x128_d2 0 Nat.zero_lt_two
      (truncf .bf16 P0 bitsLt_bf16_f32) rfl 0 rfl p s k ⟨k.val, hk⟩ (by simp)
  · rw [dif_neg hk]
    refine (RowBatch.concat_last_apply (a := 64) (c := 200) (b := 64) (n := 128)
      [⟨S64x200x64, truncf .bf16 P0 bitsLt_bf16_f32⟩, ⟨S64x200x64, truncf .bf16 (mulf (tgtRows P1) P0) bitsLt_bf16_f32⟩]
      concatenates_S64x200x64_S64x200x64_S64x200x128_d2 1 Nat.one_lt_two
      (truncf .bf16 (mulf (tgtRows P1) P0) bitsLt_bf16_f32) rfl 64 rfl p s k ⟨k.val - 64, by omega⟩
      (by show 64 + (k.val - 64) = k.val; omega)).trans ?_
    show tgtRows P1 (ix3 p s _) * P0 (ix3 p s _) = _
    rw [tgtRows_apply]

/-- The targets against the folded weights. -/
def tgtDot : FVec Ideal S64x80 .f32 :=
  matmul dot_S64x64_S64x80_S64x80_1_0_0_1_n_n none (truncf .bf16 P1 bitsLt_bf16_f32)
    (shapeCast S64x80 P2 shapeCasts_S64x80_S64x80) (constant S64x80 .f32 0x00000000#32)

theorem tgtDot_apply (p : Fin 64) (j : Fin 80) :
    tgtDot P1 P2 (ix2 p j) = ∑ d : Fin 64, P1 (ix2 p d) * P2 (ix2 d j) := by
  unfold tgtDot
  rw [shapeCast_self]
  exact DenseBlock.matmul_zero_apply (K := 64) (N := 64) (Q := 80) dot_S64x64_S64x80_S64x80_1_0_0_1_n_n.wf _ _ p j

/-- The joined inputs against the joined weights, one row per position. -/
def joinDot : FVec Ideal S12800x80 .f32 :=
  matmul dot_S12800x128_S128x80_S12800x80_1_0_0_1_n_n none (joinedIn P0 P1)
    (shapeCast S128x80 P3 shapeCasts_S128x80_S128x80) (constant S12800x80 .f32 0x00000000#32)

theorem joinDot_apply (p : Fin 64) (s : Fin 200) (j : Fin 80) (r : Fin 12800) (hr : r.val = p.val * 200 + s.val) :
    joinDot P0 P1 P3 (ix2 r j)
      = ∑ k : Fin 128, joined (fun d => P1 (ix2 p d)) (fun d => P0 (ix3 p s d)) k * P3 (ix2 k j) := by
  unfold joinDot
  rw [shapeCast_self]
  refine (DenseBlock.matmul_zero_apply (K := 12800) (N := 128) (Q := 80)
    dot_S12800x128_S128x80_S12800x80_1_0_0_1_n_n.wf _ _ r j).trans ?_
  exact Finset.sum_congr rfl fun k _ => congrArg (· * P3 (ix2 k j)) (joinedIn_apply P0 P1 p s k r hr)

/-- The first layer before its activation. -/
def pre1 : FVec Ideal S64x200x80 .f32 :=
  addf (addf (broadcastTo S64x200x80 (shapeCast S64x1x80 (tgtDot P1 P2) shapeCasts_S64x80_S64x1x80) broadcasts_S64x1x80_S64x200x80)
      (shapeCast S64x200x80 (joinDot P0 P1 P3) shapeCasts_S12800x80_S64x200x80))
    (broadcastTo S64x200x80 (shapeCast S1x1x80 P4 shapeCasts_S80_S1x1x80) broadcasts_S1x1x80_S64x200x80)

/-- The position's row number among the 12800. -/
def rowOf (p : Fin 64) (s : Fin 200) : Fin 12800 := ⟨p.val * 200 + s.val, by have := p.isLt; have := s.isLt; omega⟩

theorem pre1_apply (p : Fin 64) (s : Fin 200) (j : Fin 80) :
    pre1 P0 P1 P2 P3 P4 (ix3 p s j)
      = (∑ d : Fin 64, P1 (ix2 p d) * P2 (ix2 d j)
          + ∑ k : Fin 128, joined (fun d => P1 (ix2 p d)) (fun d => P0 (ix3 p s d)) k * P3 (ix2 k j))
        + P4 (ix1 j) := by
  have e1 : broadcastTo S64x200x80 (shapeCast S64x1x80 (tgtDot P1 P2) shapeCasts_S64x80_S64x1x80)
      broadcasts_S64x1x80_S64x200x80 (ix3 p s j) = ∑ d : Fin 64, P1 (ix2 p d) * P2 (ix2 d j) :=
    ((RowBatch.broadcastTo_a1b_acb_apply (a := 64) (c := 200) (b := 80) _ _ p s j).trans
      (RowBatch.shapeCast_ab_a1b_apply (a := 64) (b := 80) _ _ p 0 j)).trans (tgtDot_apply P1 P2 p j)
  have e2 : shapeCast S64x200x80 (joinDot P0 P1 P3) shapeCasts_S12800x80_S64x200x80 (ix3 p s j)
      = ∑ k : Fin 128, joined (fun d => P1 (ix2 p d)) (fun d => P0 (ix3 p s d)) k * P3 (ix2 k j) :=
    (FlattenRows.shapeCast_split2_apply (a := 64) (b := 200) (d := 80) (n := 12800) _ _ p s j (rowOf p s) rfl).trans
      (joinDot_apply P0 P1 P3 p s j (rowOf p s) rfl)
  have e3 : broadcastTo S64x200x80 (shapeCast S1x1x80 P4 shapeCasts_S80_S1x1x80) broadcasts_S1x1x80_S64x200x80 (ix3 p s j)
      = P4 (ix1 j) :=
    (RowBatch.broadcastTo_11b_acb_apply (a := 64) (c := 200) (b := 80) _ _ p s j).trans
      (RowBatch.shapeCast_b_11b_apply (b := 80) _ _ 0 0 j)
  show (_ + _) + _ = _
  rw [e1, e2, e3]

/-- The first hidden layer of the block. -/
def hid1 : FVec Ideal S64x200x80 .f32 :=
  maximumf (pre1 P0 P1 P2 P3 P4) (broadcast S64x200x80 (Scalar.ofBits .f32 0x00000000#32))

theorem hid1_apply (p : Fin 64) (s : Fin 200) (j : Fin 80) :
    hid1 P0 P1 P2 P3 P4 (ix3 p s j)
      = hidden1K (fun d => P1 (ix2 p d)) (fun s d => P0 (ix3 p s d)) (fun d j => P2 (ix2 d j))
          (fun k j => P3 (ix2 k j)) (fun j => P4 (ix1 j)) s j := by
  show max (pre1 P0 P1 P2 P3 P4 (ix3 p s j)) (Ideal.ofBits .f32 0x00000000#32) = _
  rw [pre1_apply, Ideal.ofBits_zero_f32]
  rfl

/-! ## The second layer -/

/-- The first hidden layer against the second layer's weights, one row per position. -/
def hidDot : FVec Ideal S12800x40 .f32 :=
  matmul dot_S12800x80_S80x40_S12800x40_1_0_0_1_n_n none
    (shapeCast S12800x80 (truncf .bf16 (hid1 P0 P1 P2 P3 P4) bitsLt_bf16_f32) shapeCasts_S64x200x80_S12800x80)
    (shapeCast S80x40 P5 shapeCasts_S80x40_S80x40) (constant S12800x40 .f32 0x00000000#32)

theorem hidDot_apply (p : Fin 64) (s : Fin 200) (k : Fin 40) (r : Fin 12800) (hr : r.val = p.val * 200 + s.val) :
    hidDot P0 P1 P2 P3 P4 P5 (ix2 r k)
      = ∑ j : Fin 80, hidden1K (fun d => P1 (ix2 p d)) (fun s d => P0 (ix3 p s d)) (fun d j => P2 (ix2 d j))
          (fun k j => P3 (ix2 k j)) (fun j => P4 (ix1 j)) s j * P5 (ix2 j k) := by
  unfold hidDot
  rw [shapeCast_self]
  refine (DenseBlock.matmul_zero_apply (K := 12800) (N := 80) (Q := 40)
    dot_S12800x80_S80x40_S12800x40_1_0_0_1_n_n.wf _ _ r k).trans ?_
  refine Finset.sum_congr rfl fun j _ => congrArg (· * P5 (ix2 j k)) ?_
  refine (FlattenRows.shapeCast_flatten2_apply (a := 64) (b := 200) (d := 80) (n := 12800) _ _ p s j r hr).trans ?_
  exact hid1_apply P0 P1 P2 P3 P4 p s j

/-- The body's first payload is the second hidden layer. -/
theorem pay2_eq : k0_pay2 (F := Ideal) P0 P1 P2 P3 P4 P5 P6
    = maximumf (addf (shapeCast S64x200x40 (hidDot P0 P1 P2 P3 P4 P5) shapeCasts_S12800x40_S64x200x40)
        (broadcastTo S64x200x40 (shapeCast S1x1x40 P6 shapeCasts_S40_S1x1x40) broadcasts_S1x1x40_S64x200x40))
      (broadcast S64x200x40 (Scalar.ofBits .f32 0x00000000#32)) := rfl

theorem pay2_apply (p : Fin 64) (s : Fin 200) (k : Fin 40) :
    k0_pay2 (F := Ideal) P0 P1 P2 P3 P4 P5 P6 (ix3 p s k)
      = max (∑ j : Fin 80, hidden1K (fun d => P1 (ix2 p d)) (fun s d => P0 (ix3 p s d)) (fun d j => P2 (ix2 d j))
          (fun k j => P3 (ix2 k j)) (fun j => P4 (ix1 j)) s j * P5 (ix2 j k) + P6 (ix1 k)) 0 := by
  rw [pay2_eq]
  have e1 : shapeCast S64x200x40 (hidDot P0 P1 P2 P3 P4 P5) shapeCasts_S12800x40_S64x200x40 (ix3 p s k) = _ :=
    (FlattenRows.shapeCast_split2_apply (a := 64) (b := 200) (d := 40) (n := 12800) _ _ p s k (rowOf p s) rfl).trans
      (hidDot_apply P0 P1 P2 P3 P4 P5 p s k (rowOf p s) rfl)
  have e2 : broadcastTo S64x200x40 (shapeCast S1x1x40 P6 shapeCasts_S40_S1x1x40) broadcasts_S1x1x40_S64x200x40 (ix3 p s k)
      = P6 (ix1 k) :=
    (RowBatch.broadcastTo_11b_acb_apply (a := 64) (c := 200) (b := 40) _ _ p s k).trans
      (RowBatch.shapeCast_b_11b_apply (b := 40) _ _ 0 0 k)
  show max (_ + _) (Ideal.ofBits .f32 0x00000000#32) = _
  rw [e1, e2, Ideal.ofBits_zero_f32]

/-! ## The third layer, the mask and the softmax -/

/-- The third layer's 40 weights, repeated for every position. -/
def w3Rows : FVec Ideal S64x200x40 .f32 :=
  broadcastTo S64x200x40 (shapeCast S1x1x40 (shapeCast S1x40 P7 shapeCasts_S1x40_S1x40) shapeCasts_S1x40_S1x1x40)
    broadcasts_S1x1x40_S64x200x40

theorem w3Rows_apply (p : Fin 64) (s : Fin 200) (k : Fin 40) : w3Rows P7 (ix3 p s k) = P7 (ix2 (0 : Fin 1) k) := by
  unfold w3Rows
  rw [shapeCast_self]
  exact (RowBatch.broadcastTo_11b_acb_apply (a := 64) (c := 200) (b := 40) _ _ p s k).trans
    (RowBatch.shapeCast_1b_11b_apply (b := 40) _ _ 0 0 k)

/-- The scores before masking, from the second hidden layer `H`. -/
def rawScore : FVec Ideal S64x200 .f32 :=
  addf (multiReduction .add [2] S64x200 (mulf H (w3Rows P7)) 0x00000000#32 reduces_S64x200x40_S64x200 (.inl rfl) rfl)
    (broadcastTo S64x200 (shapeCast S1x1 P8 shapeCasts_S1_S1x1) broadcasts_S1x1_S64x200)

theorem rawScore_apply (p : Fin 64) (s : Fin 200) :
    rawScore P7 P8 H (ix2 p s) = ∑ k : Fin 40, H (ix3 p s k) * P7 (ix2 (0 : Fin 1) k) + P8 (ix1 (0 : Fin 1)) := by
  have e1 : multiReduction .add [2] S64x200 (mulf H (w3Rows P7)) 0x00000000#32 reduces_S64x200x40_S64x200 (.inl rfl) rfl
      (ix2 p s) = ∑ k : Fin 40, H (ix3 p s k) * P7 (ix2 (0 : Fin 1) k) := by
    refine (RowBatch.lane_sum_last_apply (a := 64) (c := 200) (b := 40) _ _ _ _ p s).trans ?_
    refine Finset.sum_congr rfl fun k _ => ?_
    show H (ix3 p s k) * w3Rows P7 (ix3 p s k) = _
    rw [w3Rows_apply]
  have e2 : broadcastTo S64x200 (shapeCast S1x1 P8 shapeCasts_S1_S1x1) broadcasts_S1x1_S64x200 (ix2 p s)
      = P8 (ix1 (0 : Fin 1)) :=
    (UnitBroadcast.broadcastTo_11_ab_apply (a := 64) (b := 200) _ _ p s).trans
      (shapeCast_apply P8 shapeCasts_S1_S1x1 _ _ (by rw [Shape.rowMajor_val_one, Shape.rowMajor_val_two]; rfl))
  show _ + _ = _
  rw [e1, e2]

/-- The masked scores. -/
def masked : FVec Ideal S64x200 .f32 :=
  addf (mulf (rawScore P7 P8 H) (sitofp .f32 P9))
    (mulf (broadcast S64x200 (Scalar.ofBits .f32 0xCE6E6B28#32))
      (subf (broadcast S64x200 (Scalar.ofBits .f32 0x3F800000#32)) (sitofp .f32 P9)))

theorem masked_apply (p : Fin 64) (s : Fin 200) :
    masked P7 P8 P9 H (ix2 p s)
      = (∑ k : Fin 40, H (ix3 p s k) * P7 (ix2 (0 : Fin 1) k) + P8 (ix1 (0 : Fin 1)))
          * FloatOps.sitofp (F := Ideal) .f32 (P9 (ix2 p s))
        + Ideal.ofBits .f32 0xCE6E6B28#32
          * (Ideal.ofBits .f32 0x3F800000#32 - FloatOps.sitofp (F := Ideal) .f32 (P9 (ix2 p s))) := by
  show rawScore P7 P8 H (ix2 p s) * _ + _ = _
  rw [rawScore_apply]
  rfl

/-- The body's second payload is the row softmax of the masked scores. -/
theorem pay1_eq : k0_pay1 (F := Ideal) H P7 P8 P9
    = divf (exp (subf (masked P7 P8 P9 H) (broadcastTo S64x200
        (shapeCast S64x1 (multiReduction .maximumf [1] S64 (masked P7 P8 P9 H) 0xFF800000#32 reduces_S64x200_S64 (.inl rfl) rfl)
          shapeCasts_S64_S64x1) broadcasts_S64x1_S64x200)))
      (broadcastTo S64x200 (shapeCast S64x1 (multiReduction .add [1] S64
        (exp (subf (masked P7 P8 P9 H) (broadcastTo S64x200
          (shapeCast S64x1 (multiReduction .maximumf [1] S64 (masked P7 P8 P9 H) 0xFF800000#32 reduces_S64x200_S64 (.inl rfl) rfl)
            shapeCasts_S64_S64x1) broadcasts_S64x1_S64x200)))
        0x00000000#32 reduces_S64x200_S64 (.inl rfl) rfl) shapeCasts_S64_S64x1) broadcasts_S64x1_S64x200) := rfl

theorem pay1_apply (p : Fin 64) (s : Fin 200) :
    k0_pay1 (F := Ideal) H P7 P8 P9 (ix2 p s) = RowSoftmax.softmaxRow (fun j => masked P7 P8 P9 H (ix2 p j)) s := by
  rw [pay1_eq]
  exact RowSoftmax.lane_softmax_apply (a := 64) (b := 200) (masked P7 P8 P9 H) reduces_S64x200_S64 shapeCasts_S64_S64x1
    broadcasts_S64x1_S64x200 (.inl rfl) rfl (.inl rfl) rfl p s

/-- THE BLOCK AT AN ENTRY: batch row `p` of the block, position `s`. -/
theorem block_apply (p : Fin 64) (s : Fin 200) :
    k0_pay1 (F := Ideal) (k0_pay2 (F := Ideal) P0 P1 P2 P3 P4 P5 P6) P7 P8 P9 (ix2 p s)
      = attnRow (hidden1K (fun d => P1 (ix2 p d)) (fun s d => P0 (ix3 p s d)) (fun d j => P2 (ix2 d j))
            (fun k j => P3 (ix2 k j)) (fun j => P4 (ix1 j)))
          (fun j k => P5 (ix2 j k)) (fun k => P6 (ix1 k)) (fun k => P7 (ix2 (0 : Fin 1) k)) (P8 (ix1 (0 : Fin 1)))
          (fun s => FloatOps.sitofp (F := Ideal) .f32 (P9 (ix2 p s))) s := by
  rw [pay1_apply]
  unfold attnRow
  refine congrArg (fun f => RowSoftmax.softmaxRow f s) (funext fun j => ?_)
  rw [masked_apply]
  unfold scoreRow
  simp only [pay2_apply]

end Cert.KernelIdeal.Row

end
-- ==== Proof.LibConcatRows.lean ====
/-
  A concatenation along the leading axis, read at an index.

  Pieces laid end to end along axis 0 make an array whose row `pre + q` is row `q` of the piece that starts at
  row `pre` — `pre` being the total number of rows of the pieces before it. For `n` pieces of `a` rows each, row
  `a · j + q` is row `q` of piece `j`. The same for vectors: entry `pre + q` is entry `q` of that piece.
-/
import Idealize.ShloMosaic.Lib.ValueIdx
import Idealize.ShloMosaic.Lib.Pipeline.Value

noncomputable section

namespace Idealize.ShloMosaic.ConcatRows

open Idealize.ShloMosaic Idealize.ShloMosaic.ValueIdx

variable {α : Type}

/-- Matrices stacked along axis 0: entry `(r, c)` of the stack, where `r = pre + q` and `pre` is the number of rows
    of the pieces before piece `k`, is entry `(q, c)` of piece `k`. -/
theorem rows2_apply {a b n : ℕ} (xs : List ((s : Shape) × (s.Idx → α)))
    (h : Shape.Concatenates (xs.map (·.1)) (⟨2, ![n, b]⟩ : Shape) (0 : Fin 2))
    (k : ℕ) (hk : k < xs.length) (x : (⟨2, ![a, b]⟩ : Shape).Idx → α)
    (hxk : xs[k] = ⟨(⟨2, ![a, b]⟩ : Shape), x⟩) (pre : ℕ)
    (hpre : (((xs.take k).map (·.1)).map fun s : Shape =>
        if h : s.rank = (⟨2, ![n, b]⟩ : Shape).rank then s.size ((0 : Fin 2).cast h.symm) else 0).sum = pre)
    (r : Fin n) (q : Fin a) (c : Fin b) (hr : pre + q.val = r.val) :
    concatenate (⟨2, ![n, b]⟩ : Shape) (0 : Fin 2) xs h (ix2 r c) = x (ix2 q c) :=
  concatenate_apply_piece (t := (⟨2, ![n, b]⟩ : Shape)) (0 : Fin 2) xs h (ix2 r c) k hk (⟨2, ![a, b]⟩ : Shape) x hxk rfl
    pre hpre (ix2 q c)
    (fun ax hax => by
      match ax, hax with
      | ⟨0, _⟩, hax => exact absurd rfl hax
      | ⟨1, _⟩, _ => rfl)
    hr

/-- Vectors laid end to end: entry `r = pre + q` of the whole, `pre` the total length of the pieces before piece
    `k`, is entry `q` of piece `k`. -/
theorem rows1_apply {a n : ℕ} (xs : List ((s : Shape) × (s.Idx → α)))
    (h : Shape.Concatenates (xs.map (·.1)) (⟨1, ![n]⟩ : Shape) (0 : Fin 1))
    (k : ℕ) (hk : k < xs.length) (x : (⟨1, ![a]⟩ : Shape).Idx → α)
    (hxk : xs[k] = ⟨(⟨1, ![a]⟩ : Shape), x⟩) (pre : ℕ)
    (hpre : (((xs.take k).map (·.1)).map fun s : Shape =>
        if h : s.rank = (⟨1, ![n]⟩ : Shape).rank then s.size ((0 : Fin 1).cast h.symm) else 0).sum = pre)
    (r : Fin n) (q : Fin a) (hr : pre + q.val = r.val) :
    concatenate (⟨1, ![n]⟩ : Shape) (0 : Fin 1) xs h (ix1 r) = x (ix1 q) :=
  concatenate_apply_piece (t := (⟨1, ![n]⟩ : Shape)) (0 : Fin 1) xs h (ix1 r) k hk (⟨1, ![a]⟩ : Shape) x hxk rfl
    pre hpre (ix1 q)
    (fun ax hax => by
      match ax, hax with
      | ⟨0, _⟩, hax => exact absurd rfl hax)
    hr

end Idealize.ShloMosaic.ConcatRows

end
-- ==== Proof.HostWeights.lean ====
/-
  The weights as the kernel's region finds them.

  Before the region the program cuts the first layer's weight matrix `W1 [256, 80]` into its four blocks of 64
  rows and stores two new arrays: the folded weights `W1_t + W1_diff` (`[64, 80]`: block 0 plus block 2) and the
  joined weights (`[128, 80]`: block 1 minus block 2 on top of block 3). It also stores the second layer's weights
  unchanged (a change of float format only) and the third layer's `[40, 1]` column as a `[1, 40]` row.
  Each of the four is read here at an entry, as entries of the program's arguments.
-/
import proofs.«178196_j661424964272_2_alg».proof.Proof.Gen.KernelIdeal.Frame
import proofs.«178196_j661424964272_2_alg».proof.Proof.LibConcatRows
import Idealize.ShloMosaic.Lib.StableHlo.Run
import Idealize.ShloMosaic.Lib.Pipeline.Value
import Idealize.ShloMosaic.Lib.ValueIdx

noncomputable section

namespace Cert.KernelIdeal.Prelude

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (c : Dev nD)

/-- The first layer's weight matrix, as launched. -/
abbrev W1 : FVec Ideal S256x80 .f32 := m ((c : Thread nD τ).loc main_arg3)

/-- Block `q` of `W1`, rows `64 q … 64 q + 63`, as the program cuts it. -/
theorem slice_apply (x : S256x80.Idx → EReal) (off : ℕ) (h : S256x80.Slices ![off, 0] S64x80) (d : Fin 64) (j : Fin 80)
    (r : Fin 256) (hr : r.val = off + d.val) :
    extractStridedSlice S64x80 ![off, 0] x h (ix2 d j) = x (ix2 r j) :=
  extractStridedSlice_apply ![off, 0] x h (ix2 d j) (ix2 r j) fun a => by
    match a with
    | ⟨0, _⟩ => exact hr
    | ⟨1, _⟩ => show j.val = 0 + j.val; omega

/-- The folded weights the region finds. -/
theorem V_folded : (V m c main_v5 : S64x80.Idx → EReal)
    = truncf (F := Ideal) (φ := .f32) .bf16 (addf (F := Ideal) (φ := .f32) (extractStridedSlice S64x80 ![0, 0] (W1 m c) slices_S256x80_S64x80_0_0)
        (extractStridedSlice S64x80 ![128, 0] (W1 m c) slices_S256x80_S64x80_128_0)) bitsLt_bf16_f32 := by
  dsimp only [Gen.V, Gen.hostOps0]
  after_results

theorem folded_apply (d : Fin 64) (j : Fin 80) :
    (V m c main_v5 : S64x80.Idx → EReal) (ix2 d j)
      = W1 m c (ix2 ⟨0 * 64 + d.val, by omega⟩ j) + W1 m c (ix2 ⟨2 * 64 + d.val, by omega⟩ j) := by
  rw [V_folded]
  show extractStridedSlice S64x80 ![0, 0] (W1 m c) slices_S256x80_S64x80_0_0 (ix2 d j)
      + extractStridedSlice S64x80 ![128, 0] (W1 m c) slices_S256x80_S64x80_128_0 (ix2 d j) = _
  rw [slice_apply (W1 m c) 0 _ d j ⟨0 * 64 + d.val, by omega⟩ (by show 0 * 64 + d.val = 0 + d.val; omega),
    slice_apply (W1 m c) 128 _ d j ⟨2 * 64 + d.val, by omega⟩ (by show 2 * 64 + d.val = 128 + d.val; omega)]

/-- The joined weights the region finds. -/
theorem V_joined : (V m c main_v8 : S128x80.Idx → EReal)
    = truncf (F := Ideal) (φ := .f32) .bf16 (concatenate S128x80 0
        [⟨S64x80, subf (F := Ideal) (φ := .f32) (extractStridedSlice S64x80 ![64, 0] (W1 m c) slices_S256x80_S64x80_64_0)
            (extractStridedSlice S64x80 ![128, 0] (W1 m c) slices_S256x80_S64x80_128_0)⟩,
          ⟨S64x80, extractStridedSlice S64x80 ![192, 0] (W1 m c) slices_S256x80_S64x80_192_0⟩]
        concatenates_S64x80_S64x80_S128x80_d0) bitsLt_bf16_f32 := by
  dsimp only [Gen.V, Gen.hostOps0]
  after_results

theorem joined_top_apply (d : Fin 64) (j : Fin 80) :
    (V m c main_v8 : S128x80.Idx → EReal) (ix2 ⟨0 * 64 + d.val, by omega⟩ j)
      = W1 m c (ix2 ⟨1 * 64 + d.val, by omega⟩ j) - W1 m c (ix2 ⟨2 * 64 + d.val, by omega⟩ j) := by
  rw [V_joined]
  refine (ConcatRows.rows2_apply (a := 64) (b := 80) (n := 128)
    [⟨S64x80, subf (F := Ideal) (φ := .f32) (extractStridedSlice S64x80 ![64, 0] (W1 m c) slices_S256x80_S64x80_64_0)
        (extractStridedSlice S64x80 ![128, 0] (W1 m c) slices_S256x80_S64x80_128_0)⟩,
      ⟨S64x80, extractStridedSlice S64x80 ![192, 0] (W1 m c) slices_S256x80_S64x80_192_0⟩]
    concatenates_S64x80_S64x80_S128x80_d0 0 Nat.zero_lt_two _ rfl 0 rfl ⟨0 * 64 + d.val, by omega⟩ d j
    (by show 0 + d.val = 0 * 64 + d.val; omega)).trans ?_
  show extractStridedSlice S64x80 ![64, 0] (W1 m c) slices_S256x80_S64x80_64_0 (ix2 d j)
      - extractStridedSlice S64x80 ![128, 0] (W1 m c) slices_S256x80_S64x80_128_0 (ix2 d j) = _
  rw [slice_apply (W1 m c) 64 _ d j ⟨1 * 64 + d.val, by omega⟩ (by show 1 * 64 + d.val = 64 + d.val; omega),
    slice_apply (W1 m c) 128 _ d j ⟨2 * 64 + d.val, by omega⟩ (by show 2 * 64 + d.val = 128 + d.val; omega)]

theorem joined_bottom_apply (d : Fin 64) (j : Fin 80) :
    (V m c main_v8 : S128x80.Idx → EReal) (ix2 ⟨1 * 64 + d.val, by omega⟩ j)
      = W1 m c (ix2 ⟨3 * 64 + d.val, by omega⟩ j) := by
  rw [V_joined]
  refine (ConcatRows.rows2_apply (a := 64) (b := 80) (n := 128)
    [⟨S64x80, subf (F := Ideal) (φ := .f32) (extractStridedSlice S64x80 ![64, 0] (W1 m c) slices_S256x80_S64x80_64_0)
        (extractStridedSlice S64x80 ![128, 0] (W1 m c) slices_S256x80_S64x80_128_0)⟩,
      ⟨S64x80, extractStridedSlice S64x80 ![192, 0] (W1 m c) slices_S256x80_S64x80_192_0⟩]
    concatenates_S64x80_S64x80_S128x80_d0 1 Nat.one_lt_two _ rfl 64 rfl ⟨1 * 64 + d.val, by omega⟩ d j
    (by show 64 + d.val = 1 * 64 + d.val; omega)).trans ?_
  exact slice_apply (W1 m c) 192 _ d j ⟨3 * 64 + d.val, by omega⟩ (by show 3 * 64 + d.val = 192 + d.val; omega)

/-- The second layer's weights the region finds are the argument's. -/
theorem V_second : (V m c main_v9 : S80x40.Idx → EReal)
    = truncf (F := Ideal) (φ := .f32) .bf16 (m ((c : Thread nD τ).loc main_arg5) : S80x40.Idx → EReal) bitsLt_bf16_f32 := by
  dsimp only [Gen.V, Gen.hostOps0]
  after_results

theorem second_apply (i : S80x40.Idx) :
    (V m c main_v9 : S80x40.Idx → EReal) i = (m ((c : Thread nD τ).loc main_arg5) : S80x40.Idx → EReal) i := by
  rw [V_second]
  rfl

/-- The third layer's weights the region finds: the argument's column as a row. -/
theorem V_third : (V m c main_v10 : S1x40.Idx → EReal)
    = shapeCast S1x40 (m ((c : Thread nD τ).loc main_arg7) : S40x1.Idx → EReal) shapeCasts_S40x1_S1x40 := by
  dsimp only [Gen.V, Gen.hostOps0]
  after_results
  rfl

theorem third_apply (k : Fin 40) :
    (V m c main_v10 : S1x40.Idx → EReal) (ix2 (0 : Fin 1) k)
      = (m ((c : Thread nD τ).loc main_arg7) : S40x1.Idx → EReal) (ix2 k (0 : Fin 1)) := by
  rw [V_third]
  exact shapeCast_apply _ shapeCasts_S40x1_S1x40 _ _ (by
    rw [Shape.rowMajor_val_two, Shape.rowMajor_val_two]
    show k.val * 1 + (0 : Fin 1).val = (0 : Fin 1).val * 40 + k.val
    simp)

end Cert.KernelIdeal.Prelude

end
-- ==== Proof.AttnArray.lean ====
/-
  The whole result, as one function of the nine argument arrays.

  Entry `(b, s)` of the result is `attnRow` of batch row `b`'s data at position `s`: the row's target
  `x1 (b, ·)`, its 200 sequence vectors `x0 (b, ·, ·)`, its 200 mask words `x2 (b, ·)` read as numbers, and
  the shared weights and biases; the first layer in the reference's spelling. Both programs are shown to end
  holding this array.
-/
import proofs.«178196_j661424964272_2_alg».proof.Proof.AttnRow
import Idealize.ShloMosaic.Lib.ValueIdx

noncomputable section

namespace Cert.Attn

open Idealize.ShloMosaic Idealize.ShloMosaic.ValueIdx

/-- Entry `(b, s)` of the result. -/
def resultAt (x0 : (⟨3, ![4096, 200, 64]⟩ : Shape).Idx → EReal) (x1 : (⟨2, ![4096, 64]⟩ : Shape).Idx → EReal)
    (x2 : (⟨2, ![4096, 200]⟩ : Shape).Idx → BitVec 32) (x3 : (⟨2, ![256, 80]⟩ : Shape).Idx → EReal)
    (x4 : (⟨1, ![80]⟩ : Shape).Idx → EReal) (x5 : (⟨2, ![80, 40]⟩ : Shape).Idx → EReal)
    (x6 : (⟨1, ![40]⟩ : Shape).Idx → EReal) (x7 : (⟨2, ![40, 1]⟩ : Shape).Idx → EReal)
    (x8 : (⟨1, ![1]⟩ : Shape).Idx → EReal) (b : Fin 4096) (s : Fin 200) : EReal :=
  attnRow (hidden1 (fun d => x1 (ix2 b d)) (fun s d => x0 (ix3 b s d)) (fun i j => x3 (ix2 i j)) (fun j => x4 (ix1 j)))
    (fun j k => x5 (ix2 j k)) (fun k => x6 (ix1 k)) (fun k => x7 (ix2 k (0 : Fin 1))) (x8 (ix1 (0 : Fin 1)))
    (fun s => FloatOps.sitofp (F := Ideal) .f32 (x2 (ix2 b s))) s

/-- The result array. -/
def resultArray (x0 : (⟨3, ![4096, 200, 64]⟩ : Shape).Idx → EReal) (x1 : (⟨2, ![4096, 64]⟩ : Shape).Idx → EReal)
    (x2 : (⟨2, ![4096, 200]⟩ : Shape).Idx → BitVec 32) (x3 : (⟨2, ![256, 80]⟩ : Shape).Idx → EReal)
    (x4 : (⟨1, ![80]⟩ : Shape).Idx → EReal) (x5 : (⟨2, ![80, 40]⟩ : Shape).Idx → EReal)
    (x6 : (⟨1, ![40]⟩ : Shape).Idx → EReal) (x7 : (⟨2, ![40, 1]⟩ : Shape).Idx → EReal)
    (x8 : (⟨1, ![1]⟩ : Shape).Idx → EReal) : (⟨2, ![4096, 200]⟩ : Shape).Idx → EReal :=
  fun i => resultAt x0 x1 x2 x3 x4 x5 x6 x7 x8 (i 0) (i 1)

end Cert.Attn

end
-- ==== Proof.KernelArray.lean ====
/-
  From the kernel's blocks to its result array.

  The grid has 64 points. At point `t` the body sees batch rows `64 t … 64 t + 63` of the sequence vectors, the
  targets and the masks, and the whole of every weight and bias array; it writes rows `64 t … 64 t + 63` of the
  result. The 64 row blocks tile the result array, so the array ends holding, at `(b, s)`, what the point
  `t = b / 64` computed for its row `b - 64 t`.

  By KernelRow that is `attnRow` of batch row `b`'s data with the first layer in the folded spelling; the weights
  the region finds are the folded and joined blocks of `W1` (HostWeights); and for finite sequence vectors,
  targets and `W1` the folded first layer is the reference's (AttnRow's `hidden1K_eq`). So the array is
  `resultArray` of the arguments.
-/
import proofs.«178196_j661424964272_2_alg».proof.Proof.Gen.KernelIdeal.Frame
import proofs.«178196_j661424964272_2_alg».proof.Proof.KernelRow
import proofs.«178196_j661424964272_2_alg».proof.Proof.HostWeights
import proofs.«178196_j661424964272_2_alg».proof.Proof.AttnArray
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Cert.Attn
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Where each window's block sits at grid point `t`: the three batch-blocked inputs and the output at row block
    `t`, every other window at its array's only block. -/
structure IdxFacts (t : Fin cfg0.N) : Prop where
  w0_0 : win0_0.index t (0 : Fin 3) = t.val
  w0_1 : win0_0.index t (1 : Fin 3) = 0
  w0_2 : win0_0.index t (2 : Fin 3) = 0
  w1_0 : win0_1.index t (0 : Fin 2) = t.val
  w1_1 : win0_1.index t (1 : Fin 2) = 0
  w2_0 : win0_2.index t (0 : Fin 2) = t.val
  w2_1 : win0_2.index t (1 : Fin 2) = 0
  w3_0 : win0_3.index t (0 : Fin 2) = 0
  w3_1 : win0_3.index t (1 : Fin 2) = 0
  w4_0 : win0_4.index t (0 : Fin 2) = 0
  w4_1 : win0_4.index t (1 : Fin 2) = 0
  w5_0 : win0_5.index t (0 : Fin 1) = 0
  w6_0 : win0_6.index t (0 : Fin 2) = 0
  w6_1 : win0_6.index t (1 : Fin 2) = 0
  w7_0 : win0_7.index t (0 : Fin 1) = 0
  w8_0 : win0_8.index t (0 : Fin 2) = 0
  w8_1 : win0_8.index t (1 : Fin 2) = 0
  w9_0 : win0_9.index t (0 : Fin 1) = 0
  w10_0 : win0_10.index t (0 : Fin 2) = t.val
  w10_1 : win0_10.index t (1 : Fin 2) = 0

theorem idx_raw : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

theorem idx_facts (t : Fin cfg0.N) : IdxFacts t := by
  obtain ⟨a0, a1, a2, b0, b1, c0, c1, d0, d1, e0, e1, f0, g0, g1, h0, i0, i1, j0, k0, k1⟩ := idx_raw t
  exact ⟨a0, a1, a2, b0, b1, c0, c1, d0, d1, e0, e1, f0, g0, g1, h0, i0, i1, j0, k0, k1⟩

/-- A batch row of a block is a batch row of the array. -/
theorem row_lt (t : Fin cfg0.N) (p : Fin 64) : t.val * 64 + p.val < 4096 := by
  have ht : t.val < 64 := lt_of_lt_of_eq t.isLt (N_0 : cfg0.N = 64)
  have := p.isLt
  omega

/-- Batch row `p` of the block at point `t`, as a batch row of the array. -/
def rowAt (t : Fin cfg0.N) (p : Fin 64) : Fin 4096 := ⟨t.val * 64 + p.val, row_lt t p⟩

/-! ## Each window's block, read at an index -/

/-- The sequence vectors of the block at point `t`. -/
theorem blk0 (c : Dev nD) (t : Fin cfg0.N) (p : Fin 64) (s : Fin 200) (d : Fin 64) :
    (iblk m c 0 t : S64x200x64.Idx → EReal) (ix3 p s d) = (m ((c : Thread nD τ).loc main_arg0) : S4096x200x64.Idx → EReal) (ix3 (rowAt t p) s d) := by
  unfold iblk
  rw [View.read_apply]
  show V m c main_arg0 _ = _
  rw [V_main_arg0]
  congr 1
  funext a; apply Fin.ext
  match a with
  | ⟨0, _⟩ => show win0_0.index t (0 : Fin 3) * 64 + 1 * p.val = t.val * 64 + p.val; rw [(idx_facts t).w0_0]; omega
  | ⟨1, _⟩ => show win0_0.index t (1 : Fin 3) * 200 + 1 * s.val = s.val; rw [(idx_facts t).w0_1]; omega
  | ⟨2, _⟩ => show win0_0.index t (2 : Fin 3) * 64 + 1 * d.val = d.val; rw [(idx_facts t).w0_2]; omega

/-- The targets of the block at point `t`. -/
theorem blk1 (c : Dev nD) (t : Fin cfg0.N) (p : Fin 64) (d : Fin 64) :
    (iblk m c 1 t : S64x64.Idx → EReal) (ix2 p d) = (m ((c : Thread nD τ).loc main_arg1) : S4096x64.Idx → EReal) (ix2 (rowAt t p) d) := by
  unfold iblk
  rw [View.read_apply]
  show V m c main_arg1 _ = _
  rw [V_main_arg1]
  congr 1
  funext a; apply Fin.ext
  match a with
  | ⟨0, _⟩ => show win0_1.index t (0 : Fin 2) * 64 + 1 * p.val = t.val * 64 + p.val; rw [(idx_facts t).w1_0]; omega
  | ⟨1, _⟩ => show win0_1.index t (1 : Fin 2) * 64 + 1 * d.val = d.val; rw [(idx_facts t).w1_1]; omega

/-- The mask words of the block at point `t`. -/
theorem blk2 (c : Dev nD) (t : Fin cfg0.N) (p : Fin 64) (s : Fin 200) :
    (iblk m c 2 t : S64x200.Idx → BitVec 32) (ix2 p s) = (m ((c : Thread nD τ).loc main_arg2) : S4096x200.Idx → BitVec 32) (ix2 (rowAt t p) s) := by
  unfold iblk
  rw [View.read_apply]
  show V m c main_arg2 _ = _
  rw [V_main_arg2]
  congr 1
  funext a; apply Fin.ext
  match a with
  | ⟨0, _⟩ => show win0_2.index t (0 : Fin 2) * 64 + 1 * p.val = t.val * 64 + p.val; rw [(idx_facts t).w2_0]; omega
  | ⟨1, _⟩ => show win0_2.index t (1 : Fin 2) * 200 + 1 * s.val = s.val; rw [(idx_facts t).w2_1]; omega

/-- Window 3 is one block, the whole of its array, at every grid point. -/
theorem blk3 (c : Dev nD) (t : Fin cfg0.N) (i : S64x80.Idx) :
    (iblk m c 3 t : S64x80.Idx → EReal) i = (V m c main_v5 : S64x80.Idx → EReal) i := by
  unfold iblk
  rw [View.read_apply]
  show V m c main_v5 _ = _
  congr 1
  funext a; apply Fin.ext
  match a with
  | ⟨0, _⟩ => show win0_3.index t (0 : Fin 2) * 64 + 1 * (i 0).val = (i 0).val; rw [(idx_facts t).w3_0]; omega
  | ⟨1, _⟩ => show win0_3.index t (1 : Fin 2) * 80 + 1 * (i 1).val = (i 1).val; rw [(idx_facts t).w3_1]; omega

/-- Window 4 is one block, the whole of its array, at every grid point. -/
theorem blk4 (c : Dev nD) (t : Fin cfg0.N) (i : S128x80.Idx) :
    (iblk m c 4 t : S128x80.Idx → EReal) i = (V m c main_v8 : S128x80.Idx → EReal) i := by
  unfold iblk
  rw [View.read_apply]
  show V m c main_v8 _ = _
  congr 1
  funext a; apply Fin.ext
  match a with
  | ⟨0, _⟩ => show win0_4.index t (0 : Fin 2) * 128 + 1 * (i 0).val = (i 0).val; rw [(idx_facts t).w4_0]; omega
  | ⟨1, _⟩ => show win0_4.index t (1 : Fin 2) * 80 + 1 * (i 1).val = (i 1).val; rw [(idx_facts t).w4_1]; omega

/-- Window 5 is one block, the whole of its array, at every grid point. -/
theorem blk5 (c : Dev nD) (t : Fin cfg0.N) (i : S80.Idx) :
    (iblk m c 5 t : S80.Idx → EReal) i = (m ((c : Thread nD τ).loc main_arg4) : S80.Idx → EReal) i := by
  unfold iblk
  rw [View.read_apply]
  show V m c main_arg4 _ = _
  rw [V_main_arg4]
  congr 1
  funext a; apply Fin.ext
  match a with
  | ⟨0, _⟩ => show win0_5.index t (0 : Fin 1) * 80 + 1 * (i 0).val = (i 0).val; rw [(idx_facts t).w5_0]; omega

/-- Window 6 is one block, the whole of its array, at every grid point. -/
theorem blk6 (c : Dev nD) (t : Fin cfg0.N) (i : S80x40.Idx) :
    (iblk m c 6 t : S80x40.Idx → EReal) i = (V m c main_v9 : S80x40.Idx → EReal) i := by
  unfold iblk
  rw [View.read_apply]
  show V m c main_v9 _ = _
  congr 1
  funext a; apply Fin.ext
  match a with
  | ⟨0, _⟩ => show win0_6.index t (0 : Fin 2) * 80 + 1 * (i 0).val = (i 0).val; rw [(idx_facts t).w6_0]; omega
  | ⟨1, _⟩ => show win0_6.index t (1 : Fin 2) * 40 + 1 * (i 1).val = (i 1).val; rw [(idx_facts t).w6_1]; omega

/-- Window 7 is one block, the whole of its array, at every grid point. -/
theorem blk7 (c : Dev nD) (t : Fin cfg0.N) (i : S40.Idx) :
    (iblk m c 7 t : S40.Idx → EReal) i = (m ((c : Thread nD τ).loc main_arg6) : S40.Idx → EReal) i := by
  unfold iblk
  rw [View.read_apply]
  show V m c main_arg6 _ = _
  rw [V_main_arg6]
  congr 1
  funext a; apply Fin.ext
  match a with
  | ⟨0, _⟩ => show win0_7.index t (0 : Fin 1) * 40 + 1 * (i 0).val = (i 0).val; rw [(idx_facts t).w7_0]; omega

/-- Window 8 is one block, the whole of its array, at every grid point. -/
theorem blk8 (c : Dev nD) (t : Fin cfg0.N) (i : S1x40.Idx) :
    (iblk m c 8 t : S1x40.Idx → EReal) i = (V m c main_v10 : S1x40.Idx → EReal) i := by
  unfold iblk
  rw [View.read_apply]
  show V m c main_v10 _ = _
  congr 1
  funext a; apply Fin.ext
  match a with
  | ⟨0, _⟩ => show win0_8.index t (0 : Fin 2) * 1 + 1 * (i 0).val = (i 0).val; rw [(idx_facts t).w8_0]; omega
  | ⟨1, _⟩ => show win0_8.index t (1 : Fin 2) * 40 + 1 * (i 1).val = (i 1).val; rw [(idx_facts t).w8_1]; omega

/-- Window 9 is one block, the whole of its array, at every grid point. -/
theorem blk9 (c : Dev nD) (t : Fin cfg0.N) (i : S1.Idx) :
    (iblk m c 9 t : S1.Idx → EReal) i = (m ((c : Thread nD τ).loc main_arg8) : S1.Idx → EReal) i := by
  unfold iblk
  rw [View.read_apply]
  show V m c main_arg8 _ = _
  rw [V_main_arg8]
  congr 1
  funext a; apply Fin.ext
  match a with
  | ⟨0, _⟩ => show win0_9.index t (0 : Fin 1) * 1 + 1 * (i 0).val = (i 0).val; rw [(idx_facts t).w9_0]; omega

/-- The nine argument arrays on core `c`, by their literal types. -/
abbrev arr0 (c : Dev nD) : S4096x200x64.Idx → EReal := m ((c : Thread nD τ).loc main_arg0)
abbrev arr1 (c : Dev nD) : S4096x64.Idx → EReal := m ((c : Thread nD τ).loc main_arg1)
abbrev arr2 (c : Dev nD) : S4096x200.Idx → BitVec 32 := m ((c : Thread nD τ).loc main_arg2)
abbrev arr3 (c : Dev nD) : S256x80.Idx → EReal := m ((c : Thread nD τ).loc main_arg3)
abbrev arr4 (c : Dev nD) : S80.Idx → EReal := m ((c : Thread nD τ).loc main_arg4)
abbrev arr5 (c : Dev nD) : S80x40.Idx → EReal := m ((c : Thread nD τ).loc main_arg5)
abbrev arr6 (c : Dev nD) : S40.Idx → EReal := m ((c : Thread nD τ).loc main_arg6)
abbrev arr7 (c : Dev nD) : S40x1.Idx → EReal := m ((c : Thread nD τ).loc main_arg7)
abbrev arr8 (c : Dev nD) : S1.Idx → EReal := m ((c : Thread nD τ).loc main_arg8)

/-! ## What a grid point writes back -/

/-- The three arrays the first layer's regrouping reads hold real numbers, on core `c`. -/
structure FiniteAt (c : Dev nD) : Prop where
  seq : ∀ i, arr0 m c i ≠ ⊤ ∧ arr0 m c i ≠ ⊥
  tgt : ∀ i, arr1 m c i ≠ ⊤ ∧ arr1 m c i ≠ ⊥
  w1 : ∀ i, arr3 m c i ≠ ⊤ ∧ arr3 m c i ≠ ⊥

/-- The body's result at point `t`, entry `(p, s)`, is the result's entry for batch row `64 t + p`. -/
theorem point_apply (c : Dev nD) (hf : FiniteAt m c) (t : Fin cfg0.N) (p : Fin 64) (s : Fin 200) :
    k0_pay1 (F := Ideal) (k0_pay2 (F := Ideal) (iblk m c 0 t) (iblk m c 1 t) (iblk m c 3 t) (iblk m c 4 t)
        (iblk m c 5 t) (iblk m c 6 t) (iblk m c 7 t)) (iblk m c 8 t) (iblk m c 9 t) (iblk m c 2 t) (ix2 p s)
      = resultAt (arr0 m c) (arr1 m c) (arr2 m c) (arr3 m c) (arr4 m c) (arr5 m c) (arr6 m c) (arr7 m c) (arr8 m c) (rowAt t p) s := by
  refine (Row.block_apply (iblk m c 0 t) (iblk m c 1 t) (iblk m c 3 t) (iblk m c 4 t) (iblk m c 5 t) (iblk m c 6 t)
    (iblk m c 7 t) (iblk m c 8 t) (iblk m c 9 t) (iblk m c 2 t) p s).trans ?_
  unfold resultAt
  have e1 : hidden1K (fun d => (iblk m c 1 t : S64x64.Idx → EReal) (ix2 p d))
      (fun s d => (iblk m c 0 t : S64x200x64.Idx → EReal) (ix3 p s d))
      (fun d j => (iblk m c 3 t : S64x80.Idx → EReal) (ix2 d j))
      (fun k j => (iblk m c 4 t : S128x80.Idx → EReal) (ix2 k j))
      (fun j => (iblk m c 5 t : S80.Idx → EReal) (ix1 j))
      = hidden1 (fun d => arr1 m c (ix2 (rowAt t p) d)) (fun s d => arr0 m c (ix3 (rowAt t p) s d))
          (fun i j => arr3 m c (ix2 i j)) (fun j => arr4 m c (ix1 j)) := by
    simp only [blk0, blk1, blk3, blk4, blk5]
    exact hidden1K_eq _ _ (fun i j => arr3 m c (ix2 i j)) _ _ _ (fun d => hf.tgt _) (fun s d => hf.seq _)
      (fun i j => hf.w1 _) (fun d j => Prelude.folded_apply m c d j) (fun d j => Prelude.joined_top_apply m c d j)
      (fun d j => Prelude.joined_bottom_apply m c d j)
  have e2 : (fun j k => (iblk m c 6 t : S80x40.Idx → EReal) (ix2 j k)) = fun j k => arr5 m c (ix2 j k) :=
    funext fun j => funext fun k => (blk6 m c t _).trans (Prelude.second_apply m c _)
  have e3 : (fun k => (iblk m c 7 t : S40.Idx → EReal) (ix1 k)) = fun k => arr6 m c (ix1 k) :=
    funext fun k => blk7 m c t _
  have e4 : (fun k => (iblk m c 8 t : S1x40.Idx → EReal) (ix2 (0 : Fin 1) k)) = fun k => arr7 m c (ix2 k (0 : Fin 1)) :=
    funext fun k => (blk8 m c t _).trans (Prelude.third_apply m c k)
  have e5 : (iblk m c 9 t : S1.Idx → EReal) (ix1 (0 : Fin 1)) = arr8 m c (ix1 (0 : Fin 1)) := blk9 m c t _
  have e6 : (fun s => FloatOps.sitofp (F := Ideal) .f32 ((iblk m c 2 t : S64x200.Idx → BitVec 32) (ix2 p s)))
      = fun s => FloatOps.sitofp (F := Ideal) .f32 (arr2 m c (ix2 (rowAt t p) s)) :=
    funext fun s => congrArg (FloatOps.sitofp (F := Ideal) .f32) (blk2 m c t p s)
  rw [e1, e2, e3, e4, e5, e6]

/-- WHAT POINT `t` WRITES BACK is block `t` of the result array. -/
theorem flushed_eq (c : Dev nD) (hf : FiniteAt m c) (t : Fin cfg0.N) :
    (dats m 0 c).flushed 10 t = ((cfg0.win 10).blk t).view.read (Elt Ideal) (resultArray (arr0 m c) (arr1 m c) (arr2 m c) (arr3 m c) (arr4 m c) (arr5 m c) (arr6 m c) (arr7 m c) (arr8 m c)) := by
  show (cfg0.win 10).cut (grid0.coords t) ((dats m 0 c).after 10 t) = _
  rw [after0_10]
  unfold out0_10
  rw [View.canon_unit_zero hz2]
  simp only [View.ld_unit_zero (S := S64x200x64) hz3, View.ld_unit_zero (S := S64x64) hz2,
    View.ld_unit_zero (S := S64x80) hz2, View.ld_unit_zero (S := S128x80) hz2, View.ld_unit_zero (S := S80) hz1,
    View.ld_unit_zero (S := S80x40) hz2, View.ld_unit_zero (S := S40) hz1, View.ld_unit_zero (S := S1x40) hz2,
    View.ld_unit_zero (S := S1) hz1, View.ld_unit_zero (S := S64x200) hz2]
  funext y
  obtain ⟨p, s, rfl⟩ : ∃ (p : Fin 64) (s : Fin 200), y = ix2 p s := ⟨y 0, y 1, eq_ix2 y⟩
  rw [View.read_apply]
  have hemb : ((cfg0.win 10).blk t).view.emb (ix2 p s) = ix2 (rowAt t p) s := by
    funext a; apply Fin.ext
    match a with
    | ⟨0, _⟩ => show win0_10.index t (0 : Fin 2) * 64 + 1 * p.val = t.val * 64 + p.val; rw [(idx_facts t).w10_0]; omega
    | ⟨1, _⟩ => show win0_10.index t (1 : Fin 2) * 200 + 1 * s.val = s.val; rw [(idx_facts t).w10_1]; omega
  rw [hemb]
  exact point_apply m c hf t p s

/-! ## The blocks tile the array -/

/-- THE RESULT ARRAY after the run: every entry is in the block of the point its batch row belongs to (row `b` in
    the block of point `b / 64`), so the array is the result array everywhere. -/
theorem final (c : Dev nD) (hf : FiniteAt m c) : (dats m 0 c).arrAt 10 cfg0.N = resultArray (arr0 m c) (arr1 m c) (arr2 m c) (arr3 m c) (arr4 m c) (arr5 m c) (arr6 m c) (arr7 m c) (arr8 m c) :=
  (dats m 0 c).arrAt_eq_of_cover 10 (resultArray (arr0 m c) (arr1 m c) (arr2 m c) (arr3 m c) (arr4 m c) (arr5 m c) (arr6 m c) (arr7 m c) (arr8 m c)) (fun t _ => flushed_eq m c hf t) fun i => by
    have hi0 : (i 0 : Nat) < 4096 := (i 0).isLt
    have hi1 : (i 1 : Nat) < 200 := (i 1).isLt
    have htlt : (i 0 : Nat) / 64 < cfg0.N := lt_of_lt_of_eq (by omega : (i 0 : Nat) / 64 < 64) (N_0 : cfg0.N = 64).symm
    refine ⟨⟨(i 0 : Nat) / 64, htlt⟩, flush0_10 _, ?_⟩
    show i ∈ ((View.whole main_v11).slice (win0_10.rect ⟨(i 0 : Nat) / 64, htlt⟩)).set
    rw [View.set_slice_whole, Rect.mem_set_unit]
    intro a
    match a with
    | ⟨0, _⟩ =>
      show win0_10.index ⟨(i 0 : Nat) / 64, htlt⟩ (0 : Fin 2) * 64 ≤ (i 0 : Nat)
        ∧ (i 0 : Nat) < win0_10.index ⟨(i 0 : Nat) / 64, htlt⟩ (0 : Fin 2) * 64 + 64
      rw [(idx_facts ⟨(i 0 : Nat) / 64, htlt⟩).w10_0]
      show (i 0 : Nat) / 64 * 64 ≤ (i 0 : Nat) ∧ (i 0 : Nat) < (i 0 : Nat) / 64 * 64 + 64
      omega
    | ⟨1, _⟩ =>
      show win0_10.index ⟨(i 0 : Nat) / 64, htlt⟩ (1 : Fin 2) * 200 ≤ (i 1 : Nat)
        ∧ (i 1 : Nat) < win0_10.index ⟨(i 0 : Nat) / 64, htlt⟩ (1 : Fin 2) * 200 + 200
      rw [(idx_facts ⟨(i 0 : Nat) / 64, htlt⟩).w10_1]
      omega

/-! ## The run, read -/

/-- The kernel's run: the result array at `resultArray` of the arguments, the arguments unchanged. Each line below
    reads one array off the frame run's post: the output through its window, an argument a window stages through
    that window, an argument no window stages among the buffers the region leaves alone. -/
theorem run (hf : ∀ c, FiniteAt m c) :
    θ_run defs (onTc (τ := τ) (main (F := Ideal))) ⟨m, fun _ => 0, ρ⟩ fun r => ∀ c : Dev nD,
      r.2.mem ((c : Thread nD τ).loc main_v11) = resultArray (arr0 m c) (arr1 m c) (arr2 m c) (arr3 m c) (arr4 m c) (arr5 m c) (arr6 m c) (arr7 m c) (arr8 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 10).trans (final m c (hf c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c),
      ((h c).1 9).trans (((dats m 0 c).arrAt_in 9 rfl _).trans ((A_eq m c 9).trans (V_main_arg8 m c)))⟩)
    (run_main m ρ)

end Cert.KernelIdeal.Whole

end
-- ==== Proof.RefRow.lean ====
/-
  What the reference computes, read at an entry.

  The reference works on whole arrays: it repeats each batch row's target over the 200 positions, joins the four
  feature blocks `t, s, t - s, t * s` along the last axis into 256 features, and runs the three layers as
  contractions over the last axis, each followed by its bias (and the first two by `max · 0`); the masked scores
  go through a softmax along the positions.

  Read at entry `(b, s)` — batch row `b`, position `s` — the result is `attnRow` of that batch row's data with the
  first layer in the reference's own spelling `hidden1`. The generated stage lemmas read every operation but two at
  an index; the join of the four feature blocks and the maximum along the positions are read here.
-/
import proofs.«178196_j661424964272_2_alg».proof.Proof.Gen.ReferenceIdeal.Read
import proofs.«178196_j661424964272_2_alg».proof.Proof.AttnRow
import proofs.«178196_j661424964272_2_alg».proof.Proof.LibRowBatch
import proofs.«178196_j661424964272_2_alg».proof.Proof.LibRowSoftmax

noncomputable section

open scoped BigOperators

namespace Cert.ReferenceIdeal.Row

open Cert.ReferenceIdeal Cert.ReferenceIdeal.Gen Cert.ReferenceIdeal.Read Idealize.ShloMosaic Idealize.ShloMosaic.ValueIdx Cert.Attn

variable (x0 : (⟨S4096x200x64, .f32⟩ : BufTy).Contents (Elt Ideal))
  (x1 : (⟨S4096x64, .f32⟩ : BufTy).Contents (Elt Ideal))
  (x2 : (⟨S4096x200, .i32⟩ : BufTy).Contents (Elt Ideal))
  (x3 : (⟨S256x80, .f32⟩ : BufTy).Contents (Elt Ideal))
  (x4 : (⟨S80, .f32⟩ : BufTy).Contents (Elt Ideal))
  (x5 : (⟨S80x40, .f32⟩ : BufTy).Contents (Elt Ideal))
  (x6 : (⟨S40, .f32⟩ : BufTy).Contents (Elt Ideal))
  (x7 : (⟨S40x1, .f32⟩ : BufTy).Contents (Elt Ideal))
  (x8 : (⟨S1, .f32⟩ : BufTy).Contents (Elt Ideal))

/-- The repeated target: every position of batch row `b` sees the row's target. -/
theorem tgt_apply (b : Fin 4096) (s : Fin 200) (d : Fin 64) :
    val_main_v1 (F := Ideal) x1 (ix3 b s d) = x1 (ix2 b d) := by
  rw [val_main_v1_apply, val_main_v0_apply]
  exact congrArg x1 (funext fun a => Fin.ext (by match a with | ⟨0, _⟩ => rfl | ⟨1, _⟩ => rfl))

/-- The 256 features of position `s` of batch row `b`. -/
theorem feats_apply (b : Fin 4096) (s : Fin 200) (i : Fin 256) :
    val_main_v4 (F := Ideal) x0 x1 (ix3 b s i) = feat (fun d => x1 (ix2 b d)) (fun d => x0 (ix3 b s d)) i := by
  unfold val_main_v4 feat
  by_cases h0 : i.val < 64
  · rw [dif_pos h0]
    refine (RowBatch.concat_last_apply (a := 4096) (c := 200) (b := 64) (n := 256) [⟨S4096x200x64, val_main_v1 (F := Ideal) x1⟩, ⟨S4096x200x64, x0⟩, ⟨S4096x200x64, val_main_v2 (F := Ideal) x0 x1⟩, ⟨S4096x200x64, val_main_v3 (F := Ideal) x0 x1⟩] concatenates_S4096x200x64_S4096x200x64_S4096x200x64_S4096x200x64_S4096x200x256_d2
      0 (by show (0 : ℕ) < 4; omega) (val_main_v1 (F := Ideal) x1) rfl 0 rfl b s i ⟨i.val, h0⟩ (by simp)).trans ?_
    exact tgt_apply x1 b s _
  · rw [dif_neg h0]
    by_cases h1 : i.val < 128
    · rw [dif_pos h1]
      exact RowBatch.concat_last_apply (a := 4096) (c := 200) (b := 64) (n := 256) [⟨S4096x200x64, val_main_v1 (F := Ideal) x1⟩, ⟨S4096x200x64, x0⟩, ⟨S4096x200x64, val_main_v2 (F := Ideal) x0 x1⟩, ⟨S4096x200x64, val_main_v3 (F := Ideal) x0 x1⟩] concatenates_S4096x200x64_S4096x200x64_S4096x200x64_S4096x200x64_S4096x200x256_d2
        1 (by show (1 : ℕ) < 4; omega) x0 rfl 64 rfl b s i ⟨i.val - 64, by omega⟩ (by show 64 + (i.val - 64) = i.val; omega)
    · rw [dif_neg h1]
      by_cases h2 : i.val < 192
      · rw [dif_pos h2]
        refine (RowBatch.concat_last_apply (a := 4096) (c := 200) (b := 64) (n := 256) [⟨S4096x200x64, val_main_v1 (F := Ideal) x1⟩, ⟨S4096x200x64, x0⟩, ⟨S4096x200x64, val_main_v2 (F := Ideal) x0 x1⟩, ⟨S4096x200x64, val_main_v3 (F := Ideal) x0 x1⟩] concatenates_S4096x200x64_S4096x200x64_S4096x200x64_S4096x200x64_S4096x200x256_d2
          2 (by show (2 : ℕ) < 4; omega) (val_main_v2 (F := Ideal) x0 x1) rfl 128 rfl b s i ⟨i.val - 128, by omega⟩
          (by show 128 + (i.val - 128) = i.val; omega)).trans ?_
        show val_main_v1 (F := Ideal) x1 (ix3 b s _) - x0 (ix3 b s _) = _
        rw [tgt_apply]
      · rw [dif_neg h2]
        refine (RowBatch.concat_last_apply (a := 4096) (c := 200) (b := 64) (n := 256) [⟨S4096x200x64, val_main_v1 (F := Ideal) x1⟩, ⟨S4096x200x64, x0⟩, ⟨S4096x200x64, val_main_v2 (F := Ideal) x0 x1⟩, ⟨S4096x200x64, val_main_v3 (F := Ideal) x0 x1⟩] concatenates_S4096x200x64_S4096x200x64_S4096x200x64_S4096x200x64_S4096x200x256_d2
          3 (by show (3 : ℕ) < 4; omega) (val_main_v3 (F := Ideal) x0 x1) rfl 192 rfl b s i ⟨i.val - 192, by omega⟩
          (by show 192 + (i.val - 192) = i.val; omega)).trans ?_
        show val_main_v1 (F := Ideal) x1 (ix3 b s _) * x0 (ix3 b s _) = _
        rw [tgt_apply]

/-- The first hidden layer at position `s` of batch row `b`. -/
theorem hidden1_apply (b : Fin 4096) (s : Fin 200) (j : Fin 80) :
    val_main_v9 (F := Ideal) x0 x1 x3 x4 (ix3 b s j) = hidden1 (fun d => x1 (ix2 b d)) (fun s d => x0 (ix3 b s d)) (fun i j => x3 (ix2 i j)) (fun j => x4 (ix1 j)) s j := by
  rw [val_main_v9_apply, val_main_v8_apply, val_main_v5_apply, val_main_v7_apply, val_main_v6_apply,
    val_main_call0_v0_apply, val_main_call0_cst_apply]
  have el : ∀ k : Fin 256, lidx_main_v5 (ix3 b s j) k = ix3 b s k := fun k =>
    funext fun a => Fin.ext (by match a with | ⟨0, _⟩ => rfl | ⟨1, _⟩ => rfl | ⟨2, _⟩ => rfl)
  have er : ∀ k : Fin 256, ridx_main_v5 (ix3 b s j) k = ix2 k j := fun k =>
    funext fun a => Fin.ext (by match a with | ⟨0, _⟩ => rfl | ⟨1, _⟩ => rfl)
  have eb : idx_main_v6 (idx_main_v7 (ix3 b s j)) = ix1 j :=
    funext fun a => Fin.ext (by match a with | ⟨0, _⟩ => rfl)
  simp only [el, er, eb, feats_apply]
  show max (_ + _) (Ideal.ofBits .f32 0x00000000#32) = _
  rw [Ideal.ofBits_zero_f32]
  rfl

/-- The second hidden layer at position `s` of batch row `b`. -/
theorem hidden2_apply (b : Fin 4096) (s : Fin 200) (k : Fin 40) :
    val_main_v14 (F := Ideal) x0 x1 x3 x4 x5 x6 (ix3 b s k)
      = max (∑ j : Fin 80, hidden1 (fun d => x1 (ix2 b d)) (fun s d => x0 (ix3 b s d)) (fun i j => x3 (ix2 i j)) (fun j => x4 (ix1 j)) s j * x5 (ix2 j k) + x6 (ix1 k)) 0 := by
  rw [val_main_v14_apply, val_main_v13_apply, val_main_v10_apply, val_main_v12_apply, val_main_v11_apply,
    val_main_call1_v0_apply, val_main_call1_cst_apply]
  have el : ∀ j : Fin 80, lidx_main_v10 (ix3 b s k) j = ix3 b s j := fun j =>
    funext fun a => Fin.ext (by match a with | ⟨0, _⟩ => rfl | ⟨1, _⟩ => rfl | ⟨2, _⟩ => rfl)
  have er : ∀ j : Fin 80, ridx_main_v10 (ix3 b s k) j = ix2 j k := fun j =>
    funext fun a => Fin.ext (by match a with | ⟨0, _⟩ => rfl | ⟨1, _⟩ => rfl)
  have eb : idx_main_v11 (idx_main_v12 (ix3 b s k)) = ix1 k :=
    funext fun a => Fin.ext (by match a with | ⟨0, _⟩ => rfl)
  simp only [el, er, eb, hidden1_apply]
  show max (_ + _) (Ideal.ofBits .f32 0x00000000#32) = _
  rw [Ideal.ofBits_zero_f32]

/-- The masked score of position `s` of batch row `b`. -/
theorem score_apply (b : Fin 4096) (s : Fin 200) :
    val_main_v26 (F := Ideal) x0 x1 x2 x3 x4 x5 x6 x7 x8 (ix2 b s)
      = scoreRow (hidden1 (fun d => x1 (ix2 b d)) (fun s d => x0 (ix3 b s d)) (fun i j => x3 (ix2 i j)) (fun j => x4 (ix1 j))) (fun j k => x5 (ix2 j k)) (fun k => x6 (ix1 k)) (fun k => x7 (ix2 k (0 : Fin 1)))
          (x8 (ix1 (0 : Fin 1))) (fun s => FloatOps.sitofp (F := Ideal) .f32 (x2 (ix2 b s))) s := by
  rw [val_main_v26_apply, val_main_v21_apply, val_main_v25_apply, val_main_v19_apply, val_main_v18_apply,
    val_main_v15_apply, val_main_v17_apply, val_main_v16_apply, val_main_v20_apply, val_main_v24_apply,
    val_main_cst_0_apply, val_main_v23_apply, val_main_v22_apply, val_main_cst_apply]
  have hs := s.isLt
  have el : ∀ k : Fin 40, lidx_main_v15 (idx_main_v19 (ix2 b s)) k = ix3 b s k := fun k =>
    funext fun a => Fin.ext (by
      match a with
      | ⟨0, _⟩ => show (b.val * 200 + s.val) / 200 = b.val; omega
      | ⟨1, _⟩ => show (b.val * 200 + s.val) / 1 % 200 = s.val; omega
      | ⟨2, _⟩ => rfl)
  have er : ∀ k : Fin 40, ridx_main_v15 (idx_main_v19 (ix2 b s)) k = ix2 k (0 : Fin 1) := fun k =>
    funext fun a => Fin.ext (by match a with | ⟨0, _⟩ => rfl | ⟨1, _⟩ => rfl)
  have eb : idx_main_v16 (idx_main_v17 (idx_main_v19 (ix2 b s))) = ix1 (0 : Fin 1) :=
    funext fun a => Fin.ext (by match a with | ⟨0, _⟩ => rfl)
  simp only [el, er, eb, hidden2_apply]
  rfl

/-- THE REFERENCE AT AN ENTRY: batch row `b`, position `s`. -/
theorem result_apply (b : Fin 4096) (s : Fin 200) :
    val_main_v37 (F := Ideal) x0 x1 x2 x3 x4 x5 x6 x7 x8 (ix2 b s)
      = attnRow (hidden1 (fun d => x1 (ix2 b d)) (fun s d => x0 (ix3 b s d)) (fun i j => x3 (ix2 i j)) (fun j => x4 (ix1 j))) (fun j k => x5 (ix2 j k)) (fun k => x6 (ix1 k)) (fun k => x7 (ix2 k (0 : Fin 1)))
          (x8 (ix1 (0 : Fin 1))) (fun s => FloatOps.sitofp (F := Ideal) .f32 (x2 (ix2 b s))) s := by
  unfold val_main_v37 val_main_v36 val_main_v35 val_main_v34 val_main_v33 val_main_v32 val_main_v31 val_main_v30
    val_main_v29 val_main_v28 val_main_v27 val_main_cst_1 val_main_cst_2 val_main_cst_3
  refine (RowSoftmax.host_softmax_apply (a := 4096) (b := 200) (val_main_v26 (F := Ideal) x0 x1 x2 x3 x4 x5 x6 x7 x8)
    reducesTo_S4096x200_S4096_d1 (by decide) h_S_ bcast_S_S4096 bcast_S4096_S4096x1_0 bcast_S4096x1_S4096x200_0_1 b s).trans ?_
  unfold attnRow
  exact congrArg (fun f => RowSoftmax.softmaxRow f s) (funext fun j => score_apply x0 x1 x2 x3 x4 x5 x6 x7 x8 b j)

end Cert.ReferenceIdeal.Row

end
-- ==== Proof.FiniteInputs.lean ====
/-
  What the precondition says about the arrays the first layer reads.

  The precondition is one bit: the conjunction, over the eight float arguments, of "every entry `x` of the array
  satisfies `|x| < +∞`". An extended real whose absolute value `max x (-x)` is below `+∞` is neither `+∞` nor `-∞`:
  it is a real number. The first layer's regrouping needs exactly that of the sequence vectors, the targets and
  the first layer's weights, so those three conjuncts are taken out of the conjunction here.
-/
import proofs.«178196_j661424964272_2_alg».proof.Pre_finite_inputs
import proofs.«178196_j661424964272_2_alg».proof.Proof.LibColumn
import Idealize.ShloMosaic.PureOps.Ideal
import Idealize.ShloMosaic.Lib.ReduceAll
import Idealize.ShloMosaic.Lib.ValueIdx

noncomputable section

namespace Cert.FiniteInputs

open Idealize.ShloMosaic Idealize.ShloMosaic.ValueIdx

instance : Subsingleton (⟨0, ![]⟩ : Shape).Idx := ⟨fun _ _ => funext fun d => d.elim0⟩

/-- The f32 pattern of +∞ is the top of the extended reals. -/
theorem ofBits_posInf_f32 : Ideal.ofBits .f32 0x7F800000#32 = ⊤ := by simp [Ideal.ofBits, Ideal.ieee]

/-- An extended real whose absolute value is below +∞ is a real number. -/
theorem real_of_abs_lt_top (x : EReal) (h : max x (-x) < ⊤) : x ≠ ⊤ ∧ x ≠ ⊥ := by
  constructor
  · rintro rfl
    simp at h
  · rintro rfl
    simp at h

/-- One conjunct of the precondition: if "all entries have absolute value below +∞" evaluated to 1, every entry
    of the array is a real number. -/
theorem real_of_all {s : Shape} {axes : List (Fin s.rank)} (x : FVec Ideal s .f32)
    (hb : (⟨0, ![]⟩ : Shape).BroadcastsInDim s ![]) (hr : s.ReducesTo axes (⟨0, ![]⟩ : Shape))
    (hu : 0 < (⟨0, ![]⟩ : Shape).numel)
    (h : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1) (i : s.Idx) : x i ≠ ⊤ ∧ x i ≠ ⊥ := by
  have e := Host.reduce_andi_all _ _ hr hu ix0 h i
  have e' : Ideal.cmp .olt (max (x i) (-(x i)))
      (broadcastInDim s ![] hb (constant (F := Ideal) (⟨0, ![]⟩ : Shape) .f32 0x7F800000#32) i) = 1#1 := e
  rw [Column.broadcastInDim_scalar_apply] at e'
  have e'' : Ideal.cmp .olt (max (x i) (-(x i))) (Ideal.ofBits .f32 0x7F800000#32) = 1#1 := e'
  rw [ofBits_posInf_f32] at e''
  refine real_of_abs_lt_top (x i) ?_
  by_contra hlt
  have : Ideal.cmp .olt (max (x i) (-(x i))) ⊤ = 0#1 := by
    unfold Ideal.cmp
    simp [hlt]
  rw [this] at e''
  exact absurd e'' (by decide)

end Cert.FiniteInputs

end
-- ==== Proof.lean ====
/-
  An attention unit over 4096 batch rows of 200 positions: for each position the four-way feature vector
  `t, s, t - s, t * s` of the row's target `t` and the position's sequence vector `s` goes through three dense
  layers (256 → 80 → 40 → 1, the first two followed by `max · 0`), the score is blended with a large negative
  constant where the mask is off, and each row's 200 scores go through a softmax.

  The reference computes exactly that on whole arrays. The kernel works on blocks of 64 batch rows and spells the
  first layer differently: it folds the weights of the `t` and `t - s` features into one 64-row matrix, joins
  those of the `s`, `t - s` and `t * s` features into one 128-row matrix applied to the joined inputs `s, t * s`,
  and adds the two products. At the ideal instance every change of float format is the identity, so the two
  programs differ only by that regrouping,

      Σ t (w0 + w2) + (Σ s (w1 - w2) + Σ (t s) w3) = Σ t w0 + Σ s w1 + Σ (t - s) w2 + Σ (t s) w3,

  which is distributivity. Over the extended reals distributivity needs the numbers to be finite, and the
  precondition says just that of every float argument. Everything downstream of the first layer — the second
  and third layers, the mask, the softmax with its row maximum started from -∞ — is the same function of the
  first layer's output in both programs.

  The modules: FeatureLaw and AttnRow (the mathematics of one batch row, and the regrouping), AttnArray (the result
  array as one function of the arguments), KernelRow (the kernel body read at an entry), HostWeights (the folded
  and joined weights as the region finds them), KernelArray (the 64 row blocks tile the result array), RefRow (the
  reference read at an entry), FiniteInputs (what the precondition says). Here they are put together.
-/
import proofs.«178196_j661424964272_2_alg».proof.Defs
import proofs.«178196_j661424964272_2_alg».proof.Proof.Gen.Kernel
import proofs.«178196_j661424964272_2_alg».proof.Proof.Gen.Kernel.Skeleton
import proofs.«178196_j661424964272_2_alg».proof.Proof.Gen.Kernel.Launch
import proofs.«178196_j661424964272_2_alg».proof.Proof.Gen.Kernel.Points
import proofs.«178196_j661424964272_2_alg».proof.Proof.Gen.Kernel.Frame
import proofs.«178196_j661424964272_2_alg».proof.Proof.Gen.KernelIdeal
import proofs.«178196_j661424964272_2_alg».proof.Proof.Gen.KernelIdeal.Skeleton
import proofs.«178196_j661424964272_2_alg».proof.Proof.Gen.KernelIdeal.Launch
import proofs.«178196_j661424964272_2_alg».proof.Proof.Gen.KernelIdeal.Points
import proofs.«178196_j661424964272_2_alg».proof.Proof.Gen.KernelIdeal.Frame
import proofs.«178196_j661424964272_2_alg».proof.Proof.Gen.ReferenceIdeal
import proofs.«178196_j661424964272_2_alg».proof.Proof.Gen.Pre_finite_inputs
import proofs.«178196_j661424964272_2_alg».proof.Proof.Gen.ReferenceIdeal.Run
import proofs.«178196_j661424964272_2_alg».proof.Proof.Gen.ReferenceIdeal.Read
import proofs.«178196_j661424964272_2_alg».proof.Proof.KernelArray
import proofs.«178196_j661424964272_2_alg».proof.Proof.RefRow
import proofs.«178196_j661424964272_2_alg».proof.Proof.FiniteInputs
import proofs.«178196_j661424964272_2_alg».proof.Proof.AttnArray
import Idealize.ShloMosaic.Adequacy
import Idealize.ShloMosaic.Init

noncomputable section

namespace Cert.Proof

open Idealize.ShloMosaic Idealize.SL.Sem Idealize.ShloMosaic.ValueIdx Cert.Attn

/-- The reference's result array is `resultArray` of its arguments: entry by entry (RefRow). -/
theorem ref_result
    (x0 : (⟨Cert.ReferenceIdeal.S4096x200x64, .f32⟩ : BufTy).Contents (Elt Ideal))
    (x1 : (⟨Cert.ReferenceIdeal.S4096x64, .f32⟩ : BufTy).Contents (Elt Ideal))
    (x2 : (⟨Cert.ReferenceIdeal.S4096x200, .i32⟩ : BufTy).Contents (Elt Ideal))
    (x3 : (⟨Cert.ReferenceIdeal.S256x80, .f32⟩ : BufTy).Contents (Elt Ideal))
    (x4 : (⟨Cert.ReferenceIdeal.S80, .f32⟩ : BufTy).Contents (Elt Ideal))
    (x5 : (⟨Cert.ReferenceIdeal.S80x40, .f32⟩ : BufTy).Contents (Elt Ideal))
    (x6 : (⟨Cert.ReferenceIdeal.S40, .f32⟩ : BufTy).Contents (Elt Ideal))
    (x7 : (⟨Cert.ReferenceIdeal.S40x1, .f32⟩ : BufTy).Contents (Elt Ideal))
    (x8 : (⟨Cert.ReferenceIdeal.S1, .f32⟩ : BufTy).Contents (Elt Ideal)) :
    Cert.ReferenceIdeal.Read.val_main_v37 (F := Ideal) x0 x1 x2 x3 x4 x5 x6 x7 x8
      = resultArray x0 x1 x2 x3 x4 x5 x6 x7 x8 := by
  funext i
  obtain ⟨b, s, rfl⟩ : ∃ (b : Fin 4096) (s : Fin 200), i = ix2 b s := ⟨i 0, i 1, eq_ix2 i⟩
  exact Cert.ReferenceIdeal.Row.result_apply x0 x1 x2 x3 x4 x5 x6 x7 x8 b s

/-- Under the precondition the sequence vectors, the targets and the first layer's weights are real numbers: the
    precondition is a conjunction of eight "all entries finite" bits, and these are its first three. -/
theorem finite_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Whole.FiniteAt m c := by
  have h0 := congrFun (hpre c) ix0
  dsimp only [Cert.Pre_finite_inputs.fn, Cert.Pre_finite_inputs.fn_part1, Cert.Pre_finite_inputs.fn_part2] at h0
  simp only [Idealize.ShloMosaic.andi, IntOp.andi_eq_one] at h0
  obtain ⟨⟨⟨⟨⟨⟨⟨a0, a1⟩, a3⟩, -⟩, -⟩, -⟩, -⟩, -⟩ := h0
  exact ⟨Cert.FiniteInputs.real_of_all _ _ _ _ a0, Cert.FiniteInputs.real_of_all _ _ _ _ a1,
    Cert.FiniteInputs.real_of_all _ _ _ _ a3⟩

/-- The kernel as printed runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- Both idealized programs end holding `resultArray` of the arguments: the kernel block by block on finite data
    (KernelArray), the reference entry by entry (`ref_result`), from memories that agree on the arguments. -/
theorem algebraic : Cert.algebraic_KernelIdeal_ReferenceIdeal := by
  intro m ρ m' ρ' hpre hagree
  refine ⟨fun c => resultArray (Cert.KernelIdeal.Whole.arr0 m c) (Cert.KernelIdeal.Whole.arr1 m c) (Cert.KernelIdeal.Whole.arr2 m c) (Cert.KernelIdeal.Whole.arr3 m c) (Cert.KernelIdeal.Whole.arr4 m c) (Cert.KernelIdeal.Whole.arr5 m c) (Cert.KernelIdeal.Whole.arr6 m c) (Cert.KernelIdeal.Whole.arr7 m c) (Cert.KernelIdeal.Whole.arr8 m c),
    Cert.KernelIdeal.Whole.run m ρ (fun c => finite_of_pre m hpre c), ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7, e8⟩ := hagree c
  rw [(h c).1, Cert.ReferenceIdeal.Read.val_main_v37_eq, ref_result, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
